-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) (main_arg1 : IVec S16x1x1024x1024 32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  main_v3
-- ==== Kernel.lean ====
abbrev S16x1x1024x1024 : Shape := ⟨4, ![16, 1, 1024, 1024]⟩
abbrev S16384x1024 : Shape := ⟨2, ![16384, 1024]⟩
abbrev S2x3x4 : Shape := ⟨3, ![2, 3, 4]⟩
abbrev S1024x1024 : Shape := ⟨2, ![1024, 1024]⟩
abbrev S1x3x4 : Shape := ⟨3, ![1, 3, 4]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x4 : Shape := ⟨2, ![1, 4]⟩
abbrev S3x4 : Shape := ⟨2, ![3, 4]⟩
abbrev S_ : Shape := ⟨0, ![]⟩
abbrev S4 : Shape := ⟨1, ![4]⟩

abbrev nBuf : Space → Nat
  | .hbm => 31
  | .vmem => 6
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .i32⟩
  | .hbm, ⟨2, _⟩ => ⟨S16384x1024, .f32⟩
  | .hbm, ⟨3, _⟩ => ⟨S16384x1024, .i32⟩
  | .hbm, ⟨4, _⟩ => ⟨S2x3x4, .f32⟩
  | .hbm, ⟨5, _⟩ => ⟨S_, .f32⟩
  | .hbm, ⟨6, _⟩ => ⟨S3x4, .f32⟩
  | .hbm, ⟨7, _⟩ => ⟨S1x4, .f32⟩
  | .hbm, ⟨8, _⟩ => ⟨S4, .f32⟩
  | .hbm, ⟨9, _⟩ => ⟨S1x4, .f32⟩
  | .hbm, ⟨10, _⟩ => ⟨S4, .f32⟩
  | .hbm, ⟨11, _⟩ => ⟨S1x4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .i32⟩
  | .local _ .vmem, ⟨3, _⟩ => ⟨S1024x1024, .i32⟩
  | .local _ .vmem, ⟨4, _⟩ => ⟨S1x3x4, .f32⟩
  | .local _ .vmem, ⟨5, _⟩ => ⟨S1x3x4, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x1x1024x1024_S16384x1024 : S16x1x1024x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  concatenates_S1x1_S1x1_S1x1_S1x1_S1x4_d1 : Shape.Concatenates [S1x1, S1x1, S1x1, S1x1] S1x4 1
  concatenates_S1x4_S1x4_S1x4_S3x4_d0 : Shape.Concatenates [S1x4, S1x4, S1x4] S3x4 0
  inb_S1x3x4_S1x3x4_0_0_0 : ∀ a, (![0, 0, 0] : Fin 3 → Nat) a + S1x3x4.size a ≤ S1x3x4.size a
  h_S1x3x4 : 0 < S1x3x4.numel
  shapeCasts_S1x3x4_S1x3x4 : S1x3x4.ShapeCasts S1x3x4
  shapeCasts_S3x4_S1x3x4 : S3x4.ShapeCasts S1x3x4
  reducesTo_S2x3x4_S3x4_d0 : S2x3x4.ReducesTo [0] S3x4
  h_S_ : 0 < S_.numel
  slices_S3x4_S1x4_0_0 : S3x4.Slices ![0, 0] S1x4
  shapeCasts_S1x4_S4 : S1x4.ShapeCasts S4
  slices_S3x4_S1x4_1_0 : S3x4.Slices ![1, 0] S1x4
  slices_S3x4_S1x4_2_0 : S3x4.Slices ![2, 0] S1x4
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .i32 = 32 ∨ (Rect.block (s := S16384x1024) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x4.size a ≤ S2x3x4.size a
  hwx0_2 : ∀ i : grid0.Coords, EltTy.bits .f32 = 32 ∨ (Rect.block (s := S2x3x4) S1x3x4.size (cc0_transform_2 i) (hinb0_2 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S16777216 : Shape := ⟨1, ![16777216]⟩
abbrev S_ : Shape := ⟨0, ![]⟩
abbrev S1 : Shape := ⟨1, ![1]⟩
abbrev S4 : Shape := ⟨1, ![4]⟩

abbrev nBuf : Space → Nat
  | .hbm => 124
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .i32⟩
  | .hbm, ⟨2, _⟩ => ⟨S16777216, .f32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .f32⟩
  | .hbm, ⟨8, _⟩ => ⟨S16777216, .f32⟩
  | .hbm, ⟨9, _⟩ => ⟨S16777216, .i1⟩
  | .hbm, ⟨10, _⟩ => ⟨S16777216, .i1⟩
  | .hbm, ⟨11, _⟩ => ⟨S16777216, .f32⟩
  | .hbm, ⟨12, _⟩ => ⟨S_, .i32⟩
  | .hbm, ⟨13, _⟩ => ⟨S16777216, .i32⟩
  | .hbm, ⟨14, _⟩ => ⟨S16777216, .i1⟩
  | .hbm, ⟨15, _⟩ => ⟨S16777216, .i1⟩
  | .hbm, ⟨16, _⟩ => ⟨S16777216, .f32⟩
  | .hbm, ⟨17, _⟩ => ⟨S16777216, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S16777216, .f32⟩
  | .hbm, ⟨36, _⟩ => ⟨S16777216, .i1⟩
  | .hbm, ⟨37, _⟩ => ⟨S16777216, .i1⟩
  | .hbm, ⟨38, _⟩ => ⟨S16777216, .f32⟩
  | .hbm, ⟨39, _⟩ => ⟨S_, .i32⟩
  | .hbm, ⟨40, _⟩ => ⟨S16777216, .i32⟩
  | .hbm, ⟨41, _⟩ => ⟨S16777216, .i1⟩
  | .hbm, ⟨42, _⟩ => ⟨S16777216, .i1⟩
  | .hbm, ⟨43, _⟩ => ⟨S16777216, .f32⟩
  | .hbm, ⟨44, _⟩ => ⟨S16777216, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16777216, .f32⟩
  | .hbm, ⟨63, _⟩ => ⟨S16777216, .i1⟩
  | .hbm, ⟨64, _⟩ => ⟨S16777216, .i1⟩
  | .hbm, ⟨65, _⟩ => ⟨S16777216, .f32⟩
  | .hbm, ⟨66, _⟩ => ⟨S_, .i32⟩
  | .hbm, ⟨67, _⟩ => ⟨S16777216, .i32⟩
  | .hbm, ⟨68, _⟩ => ⟨S16777216, .i1⟩
  | .hbm, ⟨69, _⟩ => ⟨S16777216, .i1⟩
  | .hbm, ⟨70, _⟩ => ⟨S16777216, .f32⟩
  | .hbm, ⟨71, _⟩ => ⟨S16777216, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S16777216, .f32⟩
  | .hbm, ⟨90, _⟩ => ⟨S16777216, .i1⟩
  | .hbm, ⟨91, _⟩ => ⟨S16777216, .i1⟩
  | .hbm, ⟨92, _⟩ => ⟨S16777216, .f32⟩
  | .hbm, ⟨93, _⟩ => ⟨S_, .i32⟩
  | .hbm, ⟨94, _⟩ => ⟨S16777216, .i32⟩
  | .hbm, ⟨95, _⟩ => ⟨S16777216, .i1⟩
  | .hbm, ⟨96, _⟩ => ⟨S16777216, .i1⟩
  | .hbm, ⟨97, _⟩ => ⟨S16777216, .f32⟩
  | .hbm, ⟨98, _⟩ => ⟨S16777216, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S1, .f32⟩
  | .hbm, ⟨116, _⟩ => ⟨S1, .f32⟩
  | .hbm, ⟨117, _⟩ => ⟨S1, .f32⟩
  | .hbm, ⟨118, _⟩ => ⟨S1, .f32⟩
  | .hbm, ⟨119, _⟩ => ⟨S4, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_cst_13 : Ref sig .tc := ⟨.hbm, 51, rfl⟩
abbrev main_v34 : Ref sig .tc := ⟨.hbm, 52, rfl⟩
abbrev main_cst_14 : Ref sig .tc := ⟨.hbm, 53, rfl⟩
abbrev main_v35 : Ref sig .tc := ⟨.hbm, 54, rfl⟩
abbrev main_v36 : Ref sig .tc := ⟨.hbm, 55, rfl⟩
abbrev main_cst_15 : Ref sig .tc := ⟨.hbm, 56, rfl⟩
abbrev main_v37 : Ref sig .tc := ⟨.hbm, 57, rfl⟩
abbrev main_v38 : Ref sig .tc := ⟨.hbm, 58, rfl⟩
abbrev main_cst_16 : Ref sig .tc := ⟨.hbm, 59, rfl⟩
abbrev main_v39 : Ref sig .tc := ⟨.hbm, 60, rfl⟩
abbrev main_cst_17 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_18 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_19 : Ref sig .tc := ⟨.hbm, 72, rfl⟩
abbrev main_v49 : Ref sig .tc := ⟨.hbm, 73, rfl⟩
abbrev main_cst_20 : Ref sig .tc := ⟨.hbm, 74, rfl⟩
abbrev main_v50 : Ref sig .tc := ⟨.hbm, 75, rfl⟩
abbrev main_cst_21 : Ref sig .tc := ⟨.hbm, 76, rfl⟩
abbrev main_v51 : Ref sig .tc := ⟨.hbm, 77, rfl⟩
abbrev main_cst_22 : Ref sig .tc := ⟨.hbm, 78, rfl⟩
abbrev main_v52 : Ref sig .tc := ⟨.hbm, 79, rfl⟩
abbrev main_cst_23 : Ref sig .tc := ⟨.hbm, 80, rfl⟩
abbrev main_v53 : Ref sig .tc := ⟨.hbm, 81, rfl⟩
abbrev main_v54 : Ref sig .tc := ⟨.hbm, 82, rfl⟩
abbrev main_cst_24 : Ref sig .tc := ⟨.hbm, 83, rfl⟩
abbrev main_v55 : Ref sig .tc := ⟨.hbm, 84, rfl⟩
abbrev main_v56 : Ref sig .tc := ⟨.hbm, 85, rfl⟩
abbrev main_cst_25 : Ref sig .tc := ⟨.hbm, 86, rfl⟩
abbrev main_v57 : Ref sig .tc := ⟨.hbm, 87, rfl⟩
abbrev main_cst_26 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_27 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_28 : Ref sig .tc := ⟨.hbm, 99, rfl⟩
abbrev main_v67 : Ref sig .tc := ⟨.hbm, 100, rfl⟩
abbrev main_cst_29 : Ref sig .tc := ⟨.hbm, 101, rfl⟩
abbrev main_v68 : Ref sig .tc := ⟨.hbm, 102, rfl⟩
abbrev main_cst_30 : Ref sig .tc := ⟨.hbm, 103, rfl⟩
abbrev main_v69 : Ref sig .tc := ⟨.hbm, 104, rfl⟩
abbrev main_cst_31 : Ref sig .tc := ⟨.hbm, 105, rfl⟩
abbrev main_v70 : Ref sig .tc := ⟨.hbm, 106, rfl⟩
abbrev main_cst_32 : Ref sig .tc := ⟨.hbm, 107, rfl⟩
abbrev main_v71 : Ref sig .tc := ⟨.hbm, 108, rfl⟩
abbrev main_v72 : Ref sig .tc := ⟨.hbm, 109, rfl⟩
abbrev main_cst_33 : Ref sig .tc := ⟨.hbm, 110, rfl⟩
abbrev main_v73 : Ref sig .tc := ⟨.hbm, 111, rfl⟩
abbrev main_v74 : Ref sig .tc := ⟨.hbm, 112, rfl⟩
abbrev main_cst_34 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_35 : Ref sig .tc := ⟨.hbm, 120, rfl⟩
abbrev main_v81 : Ref sig .tc := ⟨.hbm, 121, rfl⟩
abbrev main_cst_36 : Ref sig .tc := ⟨.hbm, 122, rfl⟩
abbrev main_v82 : Ref sig .tc := ⟨.hbm, 123, rfl⟩

abbrev nD : Nat := 1
abbrev τ : Topo := Topo.v7x

variable {F : FTy → Type} [FloatOps F]

class Facts₀ : Prop where
  shapeCasts_S16x1x1024x1024_S16777216 : S16x1x1024x1024.ShapeCasts S16777216
  bcast_S_S16777216 : S_.BroadcastsInDim S16777216 (![] : Fin 0 → Fin S16777216.rank)
  reducesTo_S16777216_S_d0 : S16777216.ReducesTo [0] S_
  h_S_ : 0 < S_.numel
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_

variable [Facts₀]

class Facts : Prop extends Facts₀ where

variable [Facts]
-- ==== Proof.Spec.lean ====
/-
  The mathematics of the multi-class Dice loss, stated once over the extended reals.

  For a float prediction `x` and an integer label `t` at one pixel, and a class `k` of four, three 0/1 quantities are
  counted: "the prediction is class k and the label is not the ignore label", "the label is class k (and is not the ignore
  label)", and their product. Each is summed over all 16·1024·1024 pixels; with the three totals `S₀ k, S₁ k, S₂ k` of a
  class its Dice score is `(2·S₂ k + 1) / ((S₀ k + S₁ k) + 1)`, its loss `1 − score`, and the result the mean of the four
  losses. The totals are sums in a commutative monoid, so any grouping of the pixels — one flat sum, or 2 × 8 blocks of
  1024 rows of 1024 lanes — gives the same extended real (`sum_blocks`); no finiteness is used anywhere.
-/
import Idealize.ShloMosaic.PureOps.Ideal
import Idealize.ShloMosaic.PureOps.Ideal.Laws
import Idealize.ShloMosaic.Lib.ValueIdx

noncomputable section

namespace Dice

open Idealize.ShloMosaic Idealize.ShloMosaic.ValueIdx

/-- The label is not the ignore label `-100`. -/
def valid (t : BitVec 32) : BitVec 1 := IntOp.cmpi .ne t 4294967196#32

/-- The float words of the class ids `0.0, 1.0, 2.0, 3.0`. -/
def lit : Fin 4 → BitVec 32 := ![0x00000000#32, 0x3F800000#32, 0x40000000#32, 0x40400000#32]

/-- The integer words of the class ids. -/
def lab : Fin 4 → BitVec 32 := ![0#32, 1#32, 2#32, 3#32]

/-- "The prediction is class `k`, at a pixel that counts." -/
def predBit (k : Fin 4) (x : EReal) (t : BitVec 32) : BitVec 1 :=
  IntOp.andi (Ideal.cmp .oeq x (Ideal.ofBits .f32 (lit k))) (valid t)

/-- "The label is class `k`, at a pixel that counts." -/
def targBit (k : Fin 4) (t : BitVec 32) : BitVec 1 :=
  IntOp.andi (IntOp.cmpi .eq t (lab k)) (valid t)

/-- A bit as the extended real `0` or `1`. -/
def ind (b : BitVec 1) : EReal := ((b.toNat : ℝ) : EReal)

/-- The three counted quantities of class `k` at one pixel: row 0 the prediction's, row 1 the label's, row 2 their product. -/
def elem (a : Fin 3) (k : Fin 4) (x : EReal) (t : BitVec 32) : EReal :=
  match a with
  | ⟨0, _⟩ => ind (predBit k x t)
  | ⟨1, _⟩ => ind (targBit k t)
  | ⟨_ + 2, _⟩ => ind (predBit k x t) * ind (targBit k t)

/-- A bit widened to 32 bits and read as a signed integer is the bit's `0` or `1`. -/
theorem sitofp_ext (b : BitVec 1) : (((b.setWidth 32).toInt : ℝ) : EReal) = ind b := by
  unfold ind
  have h : ∀ b : BitVec 1, (b.setWidth 32).toInt = (b.toNat : ℤ) := by decide
  rw [h b]; norm_cast

/-- The indicator of a conjunction is the product of the indicators. -/
theorem ind_and (a b : BitVec 1) : ind (IntOp.andi a b) = ind a * ind b := by
  unfold ind
  have h : ∀ a b : BitVec 1, (IntOp.andi a b).toNat = a.toNat * b.toNat := by decide
  rw [h a b, ← EReal.coe_mul]; norm_cast

/-- Pixel `n` of the flat order, as an index of the [16, 1, 1024, 1024] array. -/
def at4 (n : Fin 16777216) : (⟨4, ![16, 1, 1024, 1024]⟩ : Shape).Idx :=
  ix4 ⟨n.val / 1048576, by have := n.isLt; omega⟩ ⟨0, Nat.one_pos⟩ ⟨n.val / 1024 % 1024, Nat.mod_lt _ (by norm_num)⟩
    ⟨n.val % 1024, Nat.mod_lt _ (by norm_num)⟩

/-- The total of quantity `a` of class `k` over every pixel. -/
def tot (a : Fin 3) (k : Fin 4) (X : (⟨4, ![16, 1, 1024, 1024]⟩ : Shape).Idx → EReal)
    (T : (⟨4, ![16, 1, 1024, 1024]⟩ : Shape).Idx → BitVec 32) : EReal :=
  ∑ n : Fin 16777216, elem a k (X (at4 n)) (T (at4 n))

/-- The float zero the sums start from. -/
abbrev zeroW : EReal := Ideal.ofBits .f32 0x00000000#32
/-- The constants of the score. -/
abbrev oneW : EReal := Ideal.ofBits .f32 0x3F800000#32
abbrev twoW : EReal := Ideal.ofBits .f32 0x40000000#32
abbrev fourW : EReal := Ideal.ofBits .f32 0x40800000#32

/-- One class's loss from its three totals: `1 − (2·S₂ + 1) / ((S₀ + S₁) + 1)`. -/
def classLoss (s0 s1 s2 : EReal) : EReal :=
  oneW - Ideal.div (twoW * s2 + oneW) ((s0 + s1) + oneW)

/-- The mean of the four classes' losses. -/
def loss (S : Fin 3 → Fin 4 → EReal) : EReal :=
  Ideal.div (zeroW + ∑ k : Fin 4, classLoss (S 0 k) (S 1 k) (S 2 k)) fourW

/-! ## Regrouping the pixels -/

section Regroup

variable {M : Type} [AddCommMonoid M]

/-- A sum over `a·b` consecutive numbers is `a` consecutive sums of `b`. -/
theorem sum_fin_mul (a b : ℕ) (g : ℕ → M) :
    ∑ n : Fin (a * b), g n.val = ∑ i : Fin a, ∑ j : Fin b, g (i.val * b + j.val) := by
  rw [← Equiv.sum_comp finProdFinEquiv (fun n : Fin (a * b) => g n.val), Fintype.sum_prod_type]
  refine Finset.sum_congr rfl fun i _ => Finset.sum_congr rfl fun j _ => ?_
  rw [finProdFinEquiv_apply_val]
  congr 1
  rw [Nat.mul_comm, Nat.add_comm]

/-- The flat sum over all pixels is the sum over the two halves, the eight row blocks of a half, the 1024 rows of a block
    and the 1024 lanes of a row. -/
theorem sum_blocks (g : ℕ → M) :
    ∑ n : Fin 16777216, g n.val
      = ∑ p : Fin 2, ∑ i : Fin 8, ∑ r : Fin 1024, ∑ c : Fin 1024, g (((p.val * 8 + i.val) * 1024 + r.val) * 1024 + c.val) := by
  refine (show ∑ n : Fin (2 * 8388608), g n.val = _ from sum_fin_mul 2 8388608 g).trans ?_
  refine Finset.sum_congr rfl fun p _ => ?_
  refine (show ∑ j : Fin (8 * 1048576), g (p.val * 8388608 + j.val) = _ from
    sum_fin_mul 8 1048576 fun j => g (p.val * 8388608 + j)).trans ?_
  refine Finset.sum_congr rfl fun i _ => ?_
  refine (show ∑ j : Fin (1024 * 1024), g (p.val * 8388608 + (i.val * 1048576 + j.val)) = _ from
    sum_fin_mul 1024 1024 fun j => g (p.val * 8388608 + (i.val * 1048576 + j))).trans ?_
  refine Finset.sum_congr rfl fun r _ => Finset.sum_congr rfl fun c _ => ?_
  congr 1
  omega

end Regroup

end Dice

end
-- ==== Proof.BlockPay.lean ====
/-
  One grid point's arithmetic as one term. The body reads a [1024, 1024] block of predictions `x0` and of labels `x1`,
  counts the three quantities of each of the four classes over the block (a sum over the lanes, then over the rows), lays
  the twelve counts out as a [1, 3, 4] block and adds it to the running block `acc` of the output.
-/
import proofs.«119737_j59803124629506_1_alg».proof.Proof.Gen.KernelIdeal.Skeleton

noncomputable section

namespace Cert.KernelIdeal.Block

open Cert.KernelIdeal Cert.KernelIdeal.Gen Idealize.ShloMosaic

variable {F : FTy → Type} [FloatOps F]

/-- The running block `acc` plus the twelve counts of the blocks `x0`, `x1`: the body's last store, over its loads. -/
def blockPay (acc : Vec F S1x3x4 .f32) (x0 : Vec F S1024x1024 .f32) (x1 : Vec F S1024x1024 .i32) : Vec F S1x3x4 .f32 :=
  k0_pay2 (k0_pay8 x0 x1) (k0_pay9 x1) (k0_pay10 x0 x1)
    (k0_pay16 (k0_pay13 x0 x1)) (k0_pay17 (k0_pay14 x1)) (k0_pay18 (k0_pay15 x0 x1))
    (k0_pay21 (k0_pay3 x0) (k0_pay5 x1)) (k0_pay22 (k0_pay4 x1) (k0_pay5 x1)) (k0_pay23 (k0_pay3 x0) (k0_pay4 x1) (k0_pay5 x1))
    (k0_pay24 (k0_pay3 x0) (k0_pay5 x1)) (k0_pay25 (k0_pay4 x1) (k0_pay5 x1)) acc

end Cert.KernelIdeal.Block

end
-- ==== Proof.BlockCases.lean ====
/-
  What one grid point leaves in the output's staging buffer, as a value. A point that starts an accumulation (the
  second grid coordinate is 0) stores the zero block and then adds the point's twelve counts to it; every other point
  adds its twelve counts to what the point before left. Both are one term over the point's input blocks.
-/
import proofs.«119737_j59803124629506_1_alg».proof.Proof.Gen.KernelIdeal.Frame
import proofs.«119737_j59803124629506_1_alg».proof.Proof.BlockPay
import Idealize.ShloMosaic.Lib.Pipeline.Value
import Idealize.ShloMosaic.Lib.Tactic

noncomputable section

namespace Cert.KernelIdeal.Block

open Cert.KernelIdeal Cert.KernelIdeal.Gen Idealize.ShloMosaic Idealize.ShloMosaic.TcCoe Idealize.SL.Sem
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a point that continues an accumulation the body leaves, in the output's buffer holding `xo2`, the block `xo2` plus the
    twelve counts of the point's input blocks: its one store covers the buffer, and its loads read the whole buffers. -/
theorem out_B (c : Dev nD) (i : grid0.Coords) (arg2 : Memref sig .tc .vmem S1024x1024 .f32) (harg2 : arg2.IsWhole)
    (arg3 : Memref sig .tc .vmem S1024x1024 .i32) (harg3 : arg3.IsWhole) (arg4 : Memref sig .tc .vmem S1x3x4 .f32) (harg4 : arg4.IsWhole)
    (hc0 : ¬cond0_0 i) (x0 : Vec F S1024x1024 .f32) (x1 : Vec F S1024x1024 .i32) (xo2 : Vec F S1x3x4 .f32) :
    out0_B_2 c i arg2 harg2 arg3 harg3 arg4 harg4 hc0 x0 x1 xo2 = blockPay xo2 x0 x1 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero hz3]
  unfold blockPay
  simp only [View.readAt_eq_ld, harg2.read_unread, harg3.read_unread, harg4.read_unread,
    View.ld_unit_zero (S := S1024x1024) hz2, View.ld_unit_zero (S := S1x3x4) hz3]

/-- At a point that starts an accumulation the body first stores the zero block, reads it back, and leaves the zero block
    plus the twelve counts of the point's input blocks. -/
theorem out_A (c : Dev nD) (i : grid0.Coords) (arg2 : Memref sig .tc .vmem S1024x1024 .f32) (harg2 : arg2.IsWhole)
    (arg3 : Memref sig .tc .vmem S1024x1024 .i32) (harg3 : arg3.IsWhole) (arg4 : Memref sig .tc .vmem S1x3x4 .f32) (harg4 : arg4.IsWhole)
    (hc0 : cond0_0 i) (x0 : Vec F S1024x1024 .f32) (x1 : Vec F S1024x1024 .i32) :
    out0_A_2 c i arg2 harg2 arg3 harg3 arg4 harg4 hc0 x0 x1 = blockPay k0_pay1 x0 x1 := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x3x4) hz3, View.readCov_unit_zero (S := S1x3x4) _ hz3]
  unfold blockPay
  simp only [View.readAt_eq_ld, harg2.read_unread, harg3.read_unread,
    View.ld_unit_zero (S := S1024x1024) hz2, View.ld_unit_zero (S := S1x3x4) hz3]

end Cert.KernelIdeal.Block

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.BlockValue.lean ====
/-
  One grid point's arithmetic, read at an index over the extended reals.

  The body forms, for each of the four classes, three 0/1 masks over its [1024, 1024] block — "the prediction is the
  class, at a pixel that counts", "the label is the class, at a pixel that counts", and their conjunction —, turns each
  bit into the real 0 or 1, sums it over the lanes and then over the rows, lays the twelve totals out as a [3, 4] table
  (row: which mask; column: which class), gives the table a leading unit axis and adds it to the running [1, 3, 4] block.
  Entry (0, a, k) of the result is therefore the running block's entry plus the double sum, over the block's 1024 rows
  and 1024 lanes, of the specification's quantity `Dice.elem a k` at the pixel: a mask's bit is the specification's bit
  pixel by pixel, the conjunction's indicator is the product of the indicators, and a sum over lanes followed by a sum
  over rows is the double sum. No finiteness and no order of summation enters: the sums are finite sums in the extended
  reals.
-/
import proofs.«119737_j59803124629506_1_alg».proof.Proof.BlockPay
import proofs.«119737_j59803124629506_1_alg».proof.Proof.Spec
import proofs.«119737_j59803124629506_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen

/-! ## The double sum of a block

A `[1024, 1024]` block summed over its lanes, the column of sums laid out as `[1024, 1]`, summed over its rows and the
one total laid out as `[1, 1]`: the total is the double sum over rows and lanes of the block's entries. -/

/-- The sum over the rows of a column `[a, 1]`: the finite sum of its entries. -/
theorem colSum_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r u) :=
  (Ideal.multiReduction_add_single src 0x00000000#32 h hφ hacc (ix1 u)).trans
    (Finset.sum_congr rfl fun k _ => congrArg src (funext fun c => by
      match c with
      | ⟨0, _⟩ => exact Fin.ext rfl
      | ⟨1, _⟩ => exact Fin.ext rfl))

/-- Lanes first, then rows, each with its keepdims cast: the double sum of the block. -/
theorem blockSum_apply (v : FVec Ideal S1024x1024 .f32)
    (h1 : S1024x1024.Reduces [1] S1024) (c1 : S1024.ShapeCasts S1024x1) (h0 : S1024x1.Reduces [0] S1) (c0 : S1.ShapeCasts S1x1)
    (hφ1 hφ0 : FKind.Formats .f32) (hacc1 hacc0 : (0x00000000#32 : BitVec 32) = 0x00000000#32) :
    shapeCast S1x1 (multiReduction .add [0] S1 (shapeCast S1024x1 (multiReduction .add [1] S1024 v 0x00000000#32 h1 hφ1 hacc1) c1)
      0x00000000#32 h0 hφ0 hacc0) c0 (ix2 0 0)
      = ∑ r : Fin 1024, ∑ c : Fin 1024, v (ix2 r c) :=
  (shapeCast_a_1a_apply _ c0 0 0).trans <|
  (colSum_apply _ h0 hφ0 hacc0 0).trans <|
  Finset.sum_congr rfl fun r _ =>
  (Cert.LibKeepdims.shapeCast_a_a1_apply _ c1 r 0).trans (Cert.LibKeepdims.laneSum_apply v h1 hφ1 hacc1 r)

/-- A mask's bit widened to 32 bits and converted as a signed integer is the bit's `0` or `1`. -/
theorem conv_apply (b : IVec S1024x1024 1) (h : 1 < 32) (i : S1024x1024.Idx) :
    (sitofp .f32 (extui 32 b h) : FVec Ideal S1024x1024 .f32) i = Dice.ind (b i) := Dice.sitofp_ext (b i)

/-- The count of a mask over the block: the double sum of its bits' `0` or `1`. -/
theorem count_apply (b : IVec S1024x1024 1) (hw : 1 < 32)
    (h1 : S1024x1024.Reduces [1] S1024) (c1 : S1024.ShapeCasts S1024x1) (h0 : S1024x1.Reduces [0] S1) (c0 : S1.ShapeCasts S1x1)
    (hφ1 hφ0 : FKind.Formats .f32) (hacc1 hacc0 : (0x00000000#32 : BitVec 32) = 0x00000000#32) :
    shapeCast S1x1 (multiReduction .add [0] S1 (shapeCast S1024x1
        (multiReduction .add [1] S1024 (sitofp .f32 (extui 32 b hw) : FVec Ideal S1024x1024 .f32) 0x00000000#32 h1 hφ1 hacc1) c1)
      0x00000000#32 h0 hφ0 hacc0) c0 (ix2 0 0)
      = ∑ r : Fin 1024, ∑ c : Fin 1024, Dice.ind (b (ix2 r c)) :=
  (blockSum_apply _ h1 c1 h0 c0 hφ1 hφ0 hacc1 hacc0).trans
    (Finset.sum_congr rfl fun r _ => Finset.sum_congr rfl fun c _ => conv_apply b hw (ix2 r c))

/-! ## The layout of the twelve counts

Four `[1, 1]` counts side by side make a row `[1, 4]`, three rows stacked make the `[3, 4]` table: entry `(a, k)` of the
table is the one entry of count `k` of row `a`. -/

section Layout

variable {α : Type}

/-- Four `[1, 1]` pieces laid side by side along the lanes read, at lane `k`, piece `k`'s one entry. -/
theorem cat4_apply (v0 v1 v2 v3 : S1x1.Idx → α) (h : Shape.Concatenates [S1x1, S1x1, S1x1, S1x1] S1x4 1)
    (k : Fin 4) :
    concatenate S1x4 1 [⟨S1x1, v0⟩, ⟨S1x1, v1⟩, ⟨S1x1, v2⟩, ⟨S1x1, v3⟩] h (ix2 0 k) = (![v0, v1, v2, v3] k) (ix2 0 0) :=
  match k with
  | ⟨0, _⟩ => concatenate_apply_piece (t := S1x4) 1 [⟨S1x1, v0⟩, ⟨S1x1, v1⟩, ⟨S1x1, v2⟩, ⟨S1x1, v3⟩] h _ 0 (by show (0 : ℕ) < 4; omega) S1x1 v0 rfl rfl 0 rfl (ix2 0 0)
      (fun b hb => by match b with | ⟨0, _⟩ => rfl | ⟨1, _⟩ => exact absurd rfl hb) rfl
  | ⟨1, _⟩ => concatenate_apply_piece (t := S1x4) 1 [⟨S1x1, v0⟩, ⟨S1x1, v1⟩, ⟨S1x1, v2⟩, ⟨S1x1, v3⟩] h _ 1 (by show (1 : ℕ) < 4; omega) S1x1 v1 rfl rfl 1 rfl (ix2 0 0)
      (fun b hb => by match b with | ⟨0, _⟩ => rfl | ⟨1, _⟩ => exact absurd rfl hb) rfl
  | ⟨2, _⟩ => concatenate_apply_piece (t := S1x4) 1 [⟨S1x1, v0⟩, ⟨S1x1, v1⟩, ⟨S1x1, v2⟩, ⟨S1x1, v3⟩] h _ 2 (by show (2 : ℕ) < 4; omega) S1x1 v2 rfl rfl 2 rfl (ix2 0 0)
      (fun b hb => by match b with | ⟨0, _⟩ => rfl | ⟨1, _⟩ => exact absurd rfl hb) rfl
  | ⟨3, _⟩ => concatenate_apply_piece (t := S1x4) 1 [⟨S1x1, v0⟩, ⟨S1x1, v1⟩, ⟨S1x1, v2⟩, ⟨S1x1, v3⟩] h _ 3 (by show (3 : ℕ) < 4; omega) S1x1 v3 rfl rfl 3 rfl (ix2 0 0)
      (fun b hb => by match b with | ⟨0, _⟩ => rfl | ⟨1, _⟩ => exact absurd rfl hb) rfl

/-- Three `[1, 4]` rows stacked read, at `(a, k)`, row `a` at lane `k`. -/
theorem cat3_apply (v0 v1 v2 : S1x4.Idx → α) (h : Shape.Concatenates [S1x4, S1x4, S1x4] S3x4 0)
    (a : Fin 3) (k : Fin 4) :
    concatenate S3x4 0 [⟨S1x4, v0⟩, ⟨S1x4, v1⟩, ⟨S1x4, v2⟩] h (ix2 a k) = (![v0, v1, v2] a) (ix2 0 k) :=
  match a with
  | ⟨0, _⟩ => concatenate_apply_piece (t := S3x4) 0 [⟨S1x4, v0⟩, ⟨S1x4, v1⟩, ⟨S1x4, v2⟩] h _ 0 (by show (0 : ℕ) < 3; omega) S1x4 v0 rfl rfl 0 rfl (ix2 0 k)
      (fun b hb => by match b with | ⟨0, _⟩ => exact absurd rfl hb | ⟨1, _⟩ => rfl) rfl
  | ⟨1, _⟩ => concatenate_apply_piece (t := S3x4) 0 [⟨S1x4, v0⟩, ⟨S1x4, v1⟩, ⟨S1x4, v2⟩] h _ 1 (by show (1 : ℕ) < 3; omega) S1x4 v1 rfl rfl 1 rfl (ix2 0 k)
      (fun b hb => by match b with | ⟨0, _⟩ => exact absurd rfl hb | ⟨1, _⟩ => rfl) rfl
  | ⟨2, _⟩ => concatenate_apply_piece (t := S3x4) 0 [⟨S1x4, v0⟩, ⟨S1x4, v1⟩, ⟨S1x4, v2⟩] h _ 2 (by show (2 : ℕ) < 3; omega) S1x4 v2 rfl rfl 2 rfl (ix2 0 k)
      (fun b hb => by match b with | ⟨0, _⟩ => exact absurd rfl hb | ⟨1, _⟩ => rfl) rfl

end Layout

section Table

variable {α : Type}

/-- The `[3, 4]` table of twelve `[1, 1]` pieces read at `(a, k)`: piece `k` of row `a`, at its one index. -/
theorem table_apply (p00 p01 p02 p03 p10 p11 p12 p13 p20 p21 p22 p23 : S1x1.Idx → α)
    (h4 : Shape.Concatenates [S1x1, S1x1, S1x1, S1x1] S1x4 1) (h3 : Shape.Concatenates [S1x4, S1x4, S1x4] S3x4 0)
    (a : Fin 3) (k : Fin 4) :
    concatenate S3x4 0
        [⟨S1x4, concatenate S1x4 1 [⟨S1x1, p00⟩, ⟨S1x1, p01⟩, ⟨S1x1, p02⟩, ⟨S1x1, p03⟩] h4⟩,
         ⟨S1x4, concatenate S1x4 1 [⟨S1x1, p10⟩, ⟨S1x1, p11⟩, ⟨S1x1, p12⟩, ⟨S1x1, p13⟩] h4⟩,
         ⟨S1x4, concatenate S1x4 1 [⟨S1x1, p20⟩, ⟨S1x1, p21⟩, ⟨S1x1, p22⟩, ⟨S1x1, p23⟩] h4⟩] h3 (ix2 a k)
      = (match a, k with
          | ⟨0, _⟩, ⟨0, _⟩ => p00 | ⟨0, _⟩, ⟨1, _⟩ => p01 | ⟨0, _⟩, ⟨2, _⟩ => p02 | ⟨0, _⟩, ⟨3, _⟩ => p03
          | ⟨1, _⟩, ⟨0, _⟩ => p10 | ⟨1, _⟩, ⟨1, _⟩ => p11 | ⟨1, _⟩, ⟨2, _⟩ => p12 | ⟨1, _⟩, ⟨3, _⟩ => p13
          | ⟨2, _⟩, ⟨0, _⟩ => p20 | ⟨2, _⟩, ⟨1, _⟩ => p21 | ⟨2, _⟩, ⟨2, _⟩ => p22 | ⟨2, _⟩, ⟨3, _⟩ => p23) (ix2 0 0) :=
  (cat3_apply _ _ _ h3 a k).trans <|
  match a, k with
  | ⟨0, _⟩, ⟨0, _⟩ => cat4_apply p00 p01 p02 p03 h4 _
  | ⟨0, _⟩, ⟨1, _⟩ => cat4_apply p00 p01 p02 p03 h4 _
  | ⟨0, _⟩, ⟨2, _⟩ => cat4_apply p00 p01 p02 p03 h4 _
  | ⟨0, _⟩, ⟨3, _⟩ => cat4_apply p00 p01 p02 p03 h4 _
  | ⟨1, _⟩, ⟨0, _⟩ => cat4_apply p10 p11 p12 p13 h4 _
  | ⟨1, _⟩, ⟨1, _⟩ => cat4_apply p10 p11 p12 p13 h4 _
  | ⟨1, _⟩, ⟨2, _⟩ => cat4_apply p10 p11 p12 p13 h4 _
  | ⟨1, _⟩, ⟨3, _⟩ => cat4_apply p10 p11 p12 p13 h4 _
  | ⟨2, _⟩, ⟨0, _⟩ => cat4_apply p20 p21 p22 p23 h4 _
  | ⟨2, _⟩, ⟨1, _⟩ => cat4_apply p20 p21 p22 p23 h4 _
  | ⟨2, _⟩, ⟨2, _⟩ => cat4_apply p20 p21 p22 p23 h4 _
  | ⟨2, _⟩, ⟨3, _⟩ => cat4_apply p20 p21 p22 p23 h4 _

end Table

/-! ## The masks, pixel by pixel

Each mask of the body is, at every pixel, the specification's bit of its class: the loaded blocks pass through a cast to
their own shape, the class id is a splat, and the comparisons and conjunctions act entry by entry. -/

theorem pay3_eq (x0 : Vec Ideal S1024x1024 .f32) : k0_pay3 (F := Ideal) x0 = x0 := shapeCast_self _ _
theorem pay4_eq (x1 : Vec Ideal S1024x1024 .i32) : k0_pay4 (F := Ideal) x1 = x1 := shapeCast_self _ _

/-- "The label is not the ignore label." -/
theorem pay5_eq (x1 : Vec Ideal S1024x1024 .i32) : k0_pay5 (F := Ideal) x1 = fun i => Dice.valid (x1 i) := by
  unfold k0_pay5
  rw [pay4_eq]
  rfl

/-- Class 0, the prediction's mask. -/
theorem pay6_eq (x0 : Vec Ideal S1024x1024 .f32) (x1 : Vec Ideal S1024x1024 .i32) :
    k0_pay6 (F := Ideal) x0 x1 = fun i => Dice.predBit 0 (x0 i) (x1 i) := by
  unfold k0_pay6
  rw [pay3_eq, pay5_eq]
  rfl

/-- Class 0, the label's mask. -/
theorem pay7_eq (x1 : Vec Ideal S1024x1024 .i32) : k0_pay7 (F := Ideal) x1 = fun i => Dice.targBit 0 (x1 i) := by
  unfold k0_pay7
  rw [pay4_eq, pay5_eq]
  rfl

/-- Class 1, the prediction's mask. -/
theorem pay11_eq (x0 : Vec Ideal S1024x1024 .f32) (x1 : Vec Ideal S1024x1024 .i32) :
    k0_pay11 (F := Ideal) x0 x1 = fun i => Dice.predBit 1 (x0 i) (x1 i) := by
  unfold k0_pay11
  rw [pay3_eq, pay5_eq]
  rfl

/-- Class 1, the label's mask. -/
theorem pay12_eq (x1 : Vec Ideal S1024x1024 .i32) : k0_pay12 (F := Ideal) x1 = fun i => Dice.targBit 1 (x1 i) := by
  unfold k0_pay12
  rw [pay4_eq, pay5_eq]
  rfl

/-- Class 2, the prediction's mask. -/
theorem pay19_eq (x0 : Vec Ideal S1024x1024 .f32) (x1 : Vec Ideal S1024x1024 .i32) :
    k0_pay19 (F := Ideal) (k0_pay3 x0) (k0_pay5 x1) = fun i => Dice.predBit 2 (x0 i) (x1 i) := by
  unfold k0_pay19
  rw [pay3_eq, pay5_eq]
  rfl

/-- Class 2, the label's mask. -/
theorem pay20_eq (x1 : Vec Ideal S1024x1024 .i32) :
    k0_pay20 (k0_pay4 (F := Ideal) x1) (k0_pay5 (F := Ideal) x1) = fun i => Dice.targBit 2 (x1 i) := by
  unfold k0_pay20
  rw [pay4_eq, pay5_eq]
  rfl

/-- Class 3, the prediction's mask. -/
theorem pay24_eq (x0 : Vec Ideal S1024x1024 .f32) (x1 : Vec Ideal S1024x1024 .i32) :
    k0_pay24 (F := Ideal) (k0_pay3 x0) (k0_pay5 x1) = fun i => Dice.predBit 3 (x0 i) (x1 i) := by
  unfold k0_pay24
  rw [pay3_eq, pay5_eq]
  rfl

/-- Class 3, the label's mask. -/
theorem pay25_eq (x1 : Vec Ideal S1024x1024 .i32) :
    k0_pay25 (k0_pay4 (F := Ideal) x1) (k0_pay5 (F := Ideal) x1) = fun i => Dice.targBit 3 (x1 i) := by
  unfold k0_pay25
  rw [pay4_eq, pay5_eq]
  rfl

section Rows

variable {x0 : Vec Ideal S1024x1024 .f32} {x1 : Vec Ideal S1024x1024 .i32} {k : Fin 4}

/-- Row 0: the count of the prediction's mask is the double sum of the specification's first quantity. -/
theorem sum_row0 {p : IVec S1024x1024 1} (hp : p = fun i => Dice.predBit k (x0 i) (x1 i)) :
    ∑ r : Fin 1024, ∑ c : Fin 1024, Dice.ind (p (ix2 r c))
      = ∑ r : Fin 1024, ∑ c : Fin 1024, Dice.elem 0 k (x0 (ix2 r c)) (x1 (ix2 r c)) := by
  subst hp; rfl

/-- Row 1: the label's mask likewise. -/
theorem sum_row1 {t : IVec S1024x1024 1} (ht : t = fun i => Dice.targBit k (x1 i)) :
    ∑ r : Fin 1024, ∑ c : Fin 1024, Dice.ind (t (ix2 r c))
      = ∑ r : Fin 1024, ∑ c : Fin 1024, Dice.elem 1 k (x0 (ix2 r c)) (x1 (ix2 r c)) := by
  subst ht; rfl

/-- Row 2: the conjunction of the two masks counts the product of the two quantities. -/
theorem sum_row2 {p t : IVec S1024x1024 1} (hp : p = fun i => Dice.predBit k (x0 i) (x1 i))
    (ht : t = fun i => Dice.targBit k (x1 i)) :
    ∑ r : Fin 1024, ∑ c : Fin 1024, Dice.ind (andi p t (ix2 r c))
      = ∑ r : Fin 1024, ∑ c : Fin 1024, Dice.elem 2 k (x0 (ix2 r c)) (x1 (ix2 r c)) := by
  subst hp ht
  exact Finset.sum_congr rfl fun r _ => Finset.sum_congr rfl fun c _ => Dice.ind_and _ _

end Rows

/-! ## The twelve counts

Classes 0, 1, 2 are counted by payloads of their own; class 3's three counts are part of the last payload. -/

section Pieces

variable (x0 : Vec Ideal S1024x1024 .f32) (x1 : Vec Ideal S1024x1024 .i32)

theorem piece00 : k0_pay8 (F := Ideal) x0 x1 (ix2 0 0)
    = ∑ r : Fin 1024, ∑ c : Fin 1024, Dice.elem 0 0 (x0 (ix2 r c)) (x1 (ix2 r c)) := by
  unfold k0_pay8
  exact (count_apply _ _ _ _ _ _ _ _ _ _).trans (sum_row0 (pay6_eq x0 x1))

theorem piece10 : k0_pay9 (F := Ideal) x1 (ix2 0 0)
    = ∑ r : Fin 1024, ∑ c : Fin 1024, Dice.elem 1 0 (x0 (ix2 r c)) (x1 (ix2 r c)) := by
  unfold k0_pay9
  exact (count_apply _ _ _ _ _ _ _ _ _ _).trans (sum_row1 (pay7_eq x1))

theorem piece20 : k0_pay10 (F := Ideal) x0 x1 (ix2 0 0)
    = ∑ r : Fin 1024, ∑ c : Fin 1024, Dice.elem 2 0 (x0 (ix2 r c)) (x1 (ix2 r c)) := by
  unfold k0_pay10
  exact (count_apply _ _ _ _ _ _ _ _ _ _).trans (sum_row2 (pay6_eq x0 x1) (pay7_eq x1))

theorem piece01 : k0_pay16 (F := Ideal) (k0_pay13 x0 x1) (ix2 0 0)
    = ∑ r : Fin 1024, ∑ c : Fin 1024, Dice.elem 0 1 (x0 (ix2 r c)) (x1 (ix2 r c)) := by
  unfold k0_pay16 k0_pay13
  exact (count_apply _ _ _ _ _ _ _ _ _ _).trans (sum_row0 (pay11_eq x0 x1))

theorem piece11 : k0_pay17 (F := Ideal) (k0_pay14 x1) (ix2 0 0)
    = ∑ r : Fin 1024, ∑ c : Fin 1024, Dice.elem 1 1 (x0 (ix2 r c)) (x1 (ix2 r c)) := by
  unfold k0_pay17 k0_pay14
  exact (count_apply _ _ _ _ _ _ _ _ _ _).trans (sum_row1 (pay12_eq x1))

theorem piece21 : k0_pay18 (F := Ideal) (k0_pay15 (F := Ideal) x0 x1) (ix2 0 0)
    = ∑ r : Fin 1024, ∑ c : Fin 1024, Dice.elem 2 1 (x0 (ix2 r c)) (x1 (ix2 r c)) := by
  unfold k0_pay18 k0_pay15
  exact (count_apply _ _ _ _ _ _ _ _ _ _).trans (sum_row2 (pay11_eq x0 x1) (pay12_eq x1))

theorem piece02 : k0_pay21 (F := Ideal) (k0_pay3 x0) (k0_pay5 (F := Ideal) x1) (ix2 0 0)
    = ∑ r : Fin 1024, ∑ c : Fin 1024, Dice.elem 0 2 (x0 (ix2 r c)) (x1 (ix2 r c)) := by
  unfold k0_pay21
  exact (count_apply _ _ _ _ _ _ _ _ _ _).trans (sum_row0 (pay19_eq x0 x1))

theorem piece12 : k0_pay22 (F := Ideal) (k0_pay4 (F := Ideal) x1) (k0_pay5 (F := Ideal) x1) (ix2 0 0)
    = ∑ r : Fin 1024, ∑ c : Fin 1024, Dice.elem 1 2 (x0 (ix2 r c)) (x1 (ix2 r c)) := by
  unfold k0_pay22
  exact (count_apply _ _ _ _ _ _ _ _ _ _).trans (sum_row1 (pay20_eq x1))

theorem piece22 : k0_pay23 (F := Ideal) (k0_pay3 x0) (k0_pay4 (F := Ideal) x1) (k0_pay5 (F := Ideal) x1) (ix2 0 0)
    = ∑ r : Fin 1024, ∑ c : Fin 1024, Dice.elem 2 2 (x0 (ix2 r c)) (x1 (ix2 r c)) := by
  unfold k0_pay23
  exact (count_apply _ _ _ _ _ _ _ _ _ _).trans (sum_row2 (pay19_eq x0 x1) (pay20_eq x1))

end Pieces

/-! ## The last payload at an index

The running block passes through a cast to its own shape; the table of counts gains a leading unit axis; the two are
added entry by entry. Entry `(0, a, k)` is the running block's entry plus count `k` of row `a`; class 3's counts are
taken inside this payload, from the class's two masks. -/

theorem pay2_apply (v22 v26 v30 v47 v51 v55 v72 v76 v80 : FVec Ideal S1x1 .f32) (v83 v86 : IVec S1024x1024 1)
    (acc : Vec Ideal S1x3x4 .f32) (a : Fin 3) (k : Fin 4) :
    k0_pay2 (F := Ideal) v22 v26 v30 v47 v51 v55 v72 v76 v80 v83 v86 acc (ix3 0 a k)
      = acc (ix3 0 a k) +
        (match a, k with
          | ⟨0, _⟩, ⟨0, _⟩ => v22 (ix2 0 0) | ⟨0, _⟩, ⟨1, _⟩ => v47 (ix2 0 0) | ⟨0, _⟩, ⟨2, _⟩ => v72 (ix2 0 0)
          | ⟨0, _⟩, ⟨3, _⟩ => ∑ r : Fin 1024, ∑ c : Fin 1024, Dice.ind (v83 (ix2 r c))
          | ⟨1, _⟩, ⟨0, _⟩ => v26 (ix2 0 0) | ⟨1, _⟩, ⟨1, _⟩ => v51 (ix2 0 0) | ⟨1, _⟩, ⟨2, _⟩ => v76 (ix2 0 0)
          | ⟨1, _⟩, ⟨3, _⟩ => ∑ r : Fin 1024, ∑ c : Fin 1024, Dice.ind (v86 (ix2 r c))
          | ⟨2, _⟩, ⟨0, _⟩ => v30 (ix2 0 0) | ⟨2, _⟩, ⟨1, _⟩ => v55 (ix2 0 0) | ⟨2, _⟩, ⟨2, _⟩ => v80 (ix2 0 0)
          | ⟨2, _⟩, ⟨3, _⟩ => ∑ r : Fin 1024, ∑ c : Fin 1024, Dice.ind (andi v83 v86 (ix2 r c)) : EReal) := by
  unfold k0_pay2
  refine (addf_apply _ _ _).trans ?_
  refine congrArg₂ (· + ·) (congrFun (shapeCast_self acc _) _) ?_
  refine (shapeCast_ab_1ab_apply _ _ 0 a k).trans ?_
  refine (table_apply _ _ _ _ _ _ _ _ _ _ _ _ _ _ a k).trans ?_
  match a, k with
  | ⟨0, _⟩, ⟨0, _⟩ => rfl
  | ⟨0, _⟩, ⟨1, _⟩ => rfl
  | ⟨0, _⟩, ⟨2, _⟩ => rfl
  | ⟨0, _⟩, ⟨3, _⟩ => exact count_apply _ _ _ _ _ _ _ _ _ _
  | ⟨1, _⟩, ⟨0, _⟩ => rfl
  | ⟨1, _⟩, ⟨1, _⟩ => rfl
  | ⟨1, _⟩, ⟨2, _⟩ => rfl
  | ⟨1, _⟩, ⟨3, _⟩ => exact count_apply _ _ _ _ _ _ _ _ _ _
  | ⟨2, _⟩, ⟨0, _⟩ => rfl
  | ⟨2, _⟩, ⟨1, _⟩ => rfl
  | ⟨2, _⟩, ⟨2, _⟩ => rfl
  | ⟨2, _⟩, ⟨3, _⟩ => exact count_apply _ _ _ _ _ _ _ _ _ _

/-! ## One grid point's payload at an index -/

/-- Entry `(0, a, k)` of what one grid point stores: the running block's entry plus the sum, over the 1024 rows and 1024
    lanes of the block, of quantity `a` of class `k`. -/
theorem blockPay_apply (acc : Vec Ideal S1x3x4 .f32) (x0 : Vec Ideal S1024x1024 .f32) (x1 : Vec Ideal S1024x1024 .i32)
    (a : Fin 3) (k : Fin 4) :
    blockPay (F := Ideal) acc x0 x1 (ix3 0 a k)
      = acc (ix3 0 a k) + ∑ r : Fin 1024, ∑ c : Fin 1024, Dice.elem a k (x0 (ix2 r c)) (x1 (ix2 r c)) := by
  unfold blockPay
  refine (pay2_apply _ _ _ _ _ _ _ _ _ _ _ acc a k).trans ?_
  refine congrArg (acc (ix3 0 a k) + ·) ?_
  match a, k with
  | ⟨0, _⟩, ⟨0, _⟩ => exact piece00 x0 x1
  | ⟨0, _⟩, ⟨1, _⟩ => exact piece01 x0 x1
  | ⟨0, _⟩, ⟨2, _⟩ => exact piece02 x0 x1
  | ⟨0, _⟩, ⟨3, _⟩ => exact sum_row0 (pay24_eq x0 x1)
  | ⟨1, _⟩, ⟨0, _⟩ => exact piece10 x0 x1
  | ⟨1, _⟩, ⟨1, _⟩ => exact piece11 x0 x1
  | ⟨1, _⟩, ⟨2, _⟩ => exact piece12 x0 x1
  | ⟨1, _⟩, ⟨3, _⟩ => exact sum_row1 (pay25_eq x1)
  | ⟨2, _⟩, ⟨0, _⟩ => exact piece20 x0 x1
  | ⟨2, _⟩, ⟨1, _⟩ => exact piece21 x0 x1
  | ⟨2, _⟩, ⟨2, _⟩ => exact piece22 x0 x1
  | ⟨2, _⟩, ⟨3, _⟩ => exact sum_row2 (pay24_eq x0 x1) (pay25_eq x1)

end Cert.KernelIdeal.Block

end
-- ==== Proof.Accum.lean ====
/-
  The accumulation across the grid. The output's staging buffer is carried from one grid point to the next within a
  group of eight points (one half of the pixels): the group's first point starts from the zero block, every later point
  adds its twelve counts, and the group's last point writes the buffer back to the half's block of the output array. So
  after point `n` the buffer holds the sum of the counts of the group's points up to `n`, and the output array ends the
  region holding, per half, the sum of its eight points' counts.
-/
import proofs.«119737_j59803124629506_1_alg».proof.Proof.Gen.KernelIdeal.Frame
import proofs.«119737_j59803124629506_1_alg».proof.Proof.Spec
import proofs.«119737_j59803124629506_1_alg».proof.Proof.BlockCases
import proofs.«119737_j59803124629506_1_alg».proof.Proof.BlockValue
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The twelve counts of one pair of blocks: quantity `a` of class `k` summed over the block's rows and lanes. -/
def blockCount (x0 : Vec Ideal S1024x1024 .f32) (x1 : Vec Ideal S1024x1024 .i32) (a : Fin 3) (k : Fin 4) : EReal :=
  ∑ r : Fin 1024, ∑ q : Fin 1024, Dice.elem a k (x0 (ix2 r q)) (x1 (ix2 r q))

/-- The counts of the blocks grid point `n` reads (and `0` past the grid's end, which no sum below reaches). -/
def pointCount (c : Dev nD) (n : ℕ) (a : Fin 3) (k : Fin 4) : EReal :=
  if h : n < cfg0.N then blockCount (iblk m c 0 ⟨n, h⟩) (iblk m c 1 ⟨n, h⟩) a k else 0

/-- The zero block is zero at every entry. -/
theorem zero_apply (j : S1x3x4.Idx) : (k0_pay1 (F := Ideal)) j = 0 := Ideal.ofBits_zero_f32

/-- A point that starts an accumulation leaves its own counts. -/
theorem step_first (c : Dev nD) (t : Fin cfg0.N) (h0 : t.val % 8 = 0) (a : Fin 3) (k : Fin 4) :
    outsAt0 m c t.val t.isLt (ix3 0 a k) = pointCount m c t.val a k := by
  refine (congrFun ((outsAt0_A m c t h0).trans
    (out_A c (grid0.coords t) (ms0_0 t) (hs0_0 t) (ms0_1 t) (hs0_1 t) (ms0_2 t) (hs0_2 t) ((hcond0_0 t).mpr h0)
      (iblk m c 0 t) (iblk m c 1 t))) (ix3 0 a k)).trans ?_
  refine (blockPay_apply (k0_pay1 (F := Ideal)) (iblk m c 0 t) (iblk m c 1 t) a k).trans ?_
  rw [zero_apply, zero_add]
  unfold pointCount
  rw [dif_pos t.isLt]
  rfl

/-- Every other point adds its counts to what the point before left. -/
theorem step_next (c : Dev nD) (t : Fin cfg0.N) (h0 : ¬t.val % 8 = 0) (a : Fin 3) (k : Fin 4) :
    outsAt0 m c t.val t.isLt (ix3 0 a k)
      = outsAt0 m c (t.val - 1) (Nat.lt_of_le_of_lt (Nat.sub_le _ _) t.isLt) (ix3 0 a k) + pointCount m c t.val a k := by
  refine (congrFun ((outsAt0_B m c t h0).trans
    (out_B c (grid0.coords t) (ms0_0 t) (hs0_0 t) (ms0_1 t) (hs0_1 t) (ms0_2 t) (hs0_2 t) (fun h => h0 ((hcond0_0 t).mp h))
      (iblk m c 0 t) (iblk m c 1 t) (outsAt0 m c (t.val - 1) (Nat.lt_of_le_of_lt (Nat.sub_le _ _) t.isLt)))) (ix3 0 a k)).trans ?_
  refine (blockPay_apply _ (iblk m c 0 t) (iblk m c 1 t) a k).trans ?_
  unfold pointCount
  rw [dif_pos t.isLt]
  rfl

/-- So after point `n` the output's buffer holds the counts of the points of `n`'s group of eight up to `n`, summed. -/
theorem outsAt_apply (c : Dev nD) (a : Fin 3) (k : Fin 4) : ∀ (n : ℕ) (h : n < cfg0.N),
    outsAt0 m c n h (ix3 0 a k) = ∑ i ∈ Finset.range (n % 8 + 1), pointCount m c (n - n % 8 + i) a k
  | 0, h => by
    rw [step_first m c ⟨0, h⟩ rfl a k]
    simp
  | n + 1, h => by
    by_cases h0 : (n + 1) % 8 = 0
    · rw [step_first m c ⟨n + 1, h⟩ h0 a k]
      show pointCount m c (n + 1) a k = _
      rw [h0, Nat.sub_zero, Nat.zero_add, Finset.sum_range_one, Nat.add_zero]
    · rw [step_next m c ⟨n + 1, h⟩ h0 a k]
      show outsAt0 m c n _ (ix3 0 a k) + pointCount m c (n + 1) a k = _
      rw [outsAt_apply c a k n (Nat.lt_of_succ_lt h)]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3]

/-- Entry `(p, a, k)` of the output array after the run: the counts of the eight points of half `p`, summed. -/
def outEntry (c : Dev nD) (p : Fin 2) (a : Fin 3) (k : Fin 4) : EReal :=
  ∑ i ∈ Finset.range 8, pointCount m c (p.val * 8 + i) a k

/-- The output array after the run, as one function of its index. -/
def outArr (c : Dev nD) : Vec Ideal S2x3x4 .f32 := fun j => outEntry m c (j 0) (j 1) (j 2)

/-- The output window's block index at point `t` is `(t / 8, 0, 0)`: one block per half. -/
theorem index2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- What the last point of a half writes back is that half's block of `outArr`. -/
theorem flushed_eq (c : Dev nD) (t : Fin cfg0.N) (hf : (cfg0.win 2).flush t = true) :
    (dats m 0 c).flushed 2 t = ((cfg0.win 2).blk t).view.read (Elt Ideal) (outArr m c) := by
  have h7 : t.val % 8 = 7 := (flush0_2 t).mp hf
  have hN : t.val < 16 := lt_of_lt_of_eq t.isLt (show cfg0.N = 16 from N_0)
  show (cfg0.win 2).cut (grid0.coords t) ((dats m 0 c).after 2 t) = _
  rw [after0_2]
  funext y
  rw [View.read_apply]
  obtain ⟨a, k, rfl⟩ : ∃ (a : Fin 3) (k : Fin 4), y = ix3 0 a k :=
    ⟨y 1, y 2, funext fun ax => Fin.ext (match ax with
      | ⟨0, _⟩ => by have h : (y 0).val < 1 := (y 0).isLt; show (y 0).val = 0; omega
      | ⟨1, _⟩ => rfl
      | ⟨2, _⟩ => rfl)⟩
  show outsAt0 m c t.val t.isLt (ix3 0 a k) = outArr m c (((cfg0.win 2).blk t).view.emb (ix3 0 a k))
  rw [outsAt_apply m c a k t.val t.isLt]
  have he : ((cfg0.win 2).blk t).view.emb (ix3 (0 : Fin 1) a k) = ix3 (⟨t.val / 8, by omega⟩ : Fin 2) a k :=
    funext fun ax => Fin.ext (match ax with
      | ⟨0, _⟩ => by show win0_2.index t 0 * 1 + 1 * 0 = t.val / 8; rw [(index2 t).1]; omega
      | ⟨1, _⟩ => by show win0_2.index t 1 * 3 + 1 * a.val = a.val; rw [(index2 t).2.1]; omega
      | ⟨2, _⟩ => by show win0_2.index t 2 * 4 + 1 * k.val = k.val; rw [(index2 t).2.2]; omega)
  rw [he]
  show _ = ∑ i ∈ Finset.range 8, pointCount m c (t.val / 8 * 8 + i) a k
  have e : t.val - t.val % 8 = t.val / 8 * 8 := by omega
  rw [e, h7]

/-- Every entry of the output array lies in the block some half's last point writes back. -/
theorem covered (c : Dev nD) (i : S2x3x4.Idx) :
    ∃ t : Fin cfg0.N, (cfg0.win 2).flush t = true ∧ i ∈ ((cfg0.win 2).blk t).view.set := by
  have h0 : (i 0).val < 2 := (i 0).isLt
  have h1 : (i 1).val < 3 := (i 1).isLt
  have h2 : (i 2).val < 4 := (i 2).isLt
  let t : Fin cfg0.N := ⟨(i 0).val * 8 + 7, by rw [show cfg0.N = 16 from N_0]; omega⟩
  have ht : t.val = (i 0).val * 8 + 7 := rfl
  refine ⟨t, (flush0_2 t).mpr (by rw [ht]; omega), ?_⟩
  show i ∈ ((View.whole main_v2).slice (win0_2.rect t)).set
  rw [View.set_slice_whole, Rect.mem_set_unit]
  intro ax
  match ax with
  | ⟨0, _⟩ =>
    show win0_2.index t 0 * 1 ≤ (i 0).val ∧ (i 0).val < win0_2.index t 0 * 1 + 1
    rw [(index2 t).1, ht]; omega
  | ⟨1, _⟩ =>
    show win0_2.index t 1 * 3 ≤ (i 1).val ∧ (i 1).val < win0_2.index t 1 * 3 + 3
    rw [(index2 t).2.1]; omega
  | ⟨2, _⟩ =>
    show win0_2.index t 2 * 4 ≤ (i 2).val ∧ (i 2).val < win0_2.index t 2 * 4 + 4
    rw [(index2 t).2.2]; omega

/-- So the output array ends the region holding `outArr`. -/
theorem final (c : Dev nD) : (dats m 0 c).arrAt 2 cfg0.N = outArr m c :=
  (dats m 0 c).arrAt_eq_of_cover 2 (outArr m c) (flushed_eq m c) (covered c)

end Cert.KernelIdeal.Block

end
-- ==== Proof.PointRead.lean ====
/-
  Where a grid point's input blocks sit in the arguments. Before the region the two [16, 1, 1024, 1024] arguments are
  re-laid row-major as [16384, 1024] arrays; point `t` of the grid reads rows `1024·t … 1024·t + 1023` of each. So entry
  `(r, q)` of the point's block is pixel `(1024·t + r)·1024 + q` of the flat order.
-/
import proofs.«119737_j59803124629506_1_alg».proof.Proof.Gen.KernelIdeal.Frame
import proofs.«119737_j59803124629506_1_alg».proof.Proof.Spec
import Idealize.ShloMosaic.Lib.Pipeline.Value
import Idealize.ShloMosaic.Lib.StableHlo.Run
import Idealize.ShloMosaic.Lib.ValueIdx

noncomputable section

namespace Cert.KernelIdeal.Block

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-- When the region is entered the [16384, 1024] prediction array is the argument re-laid row-major. -/
theorem V_v0 (c : Dev nD) : (V m c main_v0 : Vec F S16384x1024 .f32)
    = shapeCast S16384x1024 (m ((c : Thread nD τ).loc main_arg0)) shapeCasts_S16x1x1024x1024_S16384x1024 := by
  show StableHlo.after hostOps0 (fun b => m (c, b)) (Proc.devRef .tc main_v0) = _
  after_results
  rfl

/-- And the [16384, 1024] label array likewise. -/
theorem V_v1 (c : Dev nD) : (V m c main_v1 : Vec F S16384x1024 .i32)
    = shapeCast S16384x1024 (m ((c : Thread nD τ).loc main_arg1)) shapeCasts_S16x1x1024x1024_S16384x1024 := by
  show StableHlo.after hostOps0 (fun b => m (c, b)) (Proc.devRef .tc main_v1) = _
  after_results
  rfl

/-- Row `R`, lane `q` of the re-laid array is pixel `R·1024 + q` of the flat order. -/
theorem relaid_apply {α : Type} (X : S16x1x1024x1024.Idx → α) (h : S16x1x1024x1024.ShapeCasts S16384x1024)
    (R : Fin 16384) (q : Fin 1024) (n : Fin 16777216) (hn : n.val = R.val * 1024 + q.val) :
    shapeCast S16384x1024 X h (ix2 R q) = X (Dice.at4 n) :=
  shapeCast_apply X h _ _ (by
    rw [Shape.rowMajor_val_four, Shape.rowMajor_val_two]
    show ((n.val / 1048576 * 1 + 0) * 1024 + n.val / 1024 % 1024) * 1024 + n.val % 1024 = R.val * 1024 + q.val
    have := n.isLt
    omega)

/-- Both input windows step through the row blocks in grid order: at point `t` the block index is `(t, 0)`. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- The prediction block of point `t` at `(r, q)` is the array's row `1024·t + r`, lane `q`. -/
theorem iblk0_apply (c : Dev nD) (t : Fin cfg0.N) (r q : Fin 1024) (R : Fin 16384) (hR : R.val = t.val * 1024 + r.val) :
    (iblk m c 0 t : Vec F S1024x1024 .f32) (ix2 r q) = (V m c main_v0 : Vec F S16384x1024 .f32) (ix2 R q) := by
  unfold iblk
  rw [View.read_apply]
  show V m c main_v0 _ = V m c main_v0 _
  refine congrArg _ (funext fun a => Fin.ext ?_)
  match a with
  | ⟨0, _⟩ => show win0_0.index t 0 * 1024 + 1 * r.val = R.val; rw [(index0 t).1, hR]; omega
  | ⟨1, _⟩ => show win0_0.index t 1 * 1024 + 1 * q.val = q.val; rw [(index0 t).2]; omega

theorem iblk1_apply (c : Dev nD) (t : Fin cfg0.N) (r q : Fin 1024) (R : Fin 16384) (hR : R.val = t.val * 1024 + r.val) :
    (iblk m c 1 t : Vec F S1024x1024 .i32) (ix2 r q) = (V m c main_v1 : Vec F S16384x1024 .i32) (ix2 R q) := by
  unfold iblk
  rw [View.read_apply]
  show V m c main_v1 _ = V m c main_v1 _
  refine congrArg _ (funext fun a => Fin.ext ?_)
  match a with
  | ⟨0, _⟩ => show win0_1.index t 0 * 1024 + 1 * r.val = R.val; rw [(index1 t).1, hR]; omega
  | ⟨1, _⟩ => show win0_1.index t 1 * 1024 + 1 * q.val = q.val; rw [(index1 t).2]; omega

end Cert.KernelIdeal.Block

end
-- ==== Proof.Tail.lean ====
/-
  The lines after the region, as one function of the output array. The region leaves a [2, 3, 4] array: for each half
  of the pixels, the three counted quantities of each of the four classes. The lines after it add the two halves, take
  the three rows apart, form each class's score and loss and average the four losses.
-/
import proofs.«119737_j59803124629506_1_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Block

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-- The two halves' blocks added: the [3, 4] array of the twelve totals, each started from the float zero. -/
def halves (o : Vec F S2x3x4 .f32) : Vec F S3x4 .f32 :=
  Host.reduceAdd o (constant S_ .f32 0x00000000#32) reducesTo_S2x3x4_S3x4_d0 h_S_

/-- Row 0 of the totals (the predictions' counts), as a [4] array. -/
def row0 (o : Vec F S2x3x4 .f32) : Vec F S4 .f32 :=
  shapeCast S4 (extractStridedSlice S1x4 ![0, 0] (halves o) slices_S3x4_S1x4_0_0) shapeCasts_S1x4_S4
/-- Row 1 (the labels' counts). -/
def row1 (o : Vec F S2x3x4 .f32) : Vec F S4 .f32 :=
  shapeCast S4 (extractStridedSlice S1x4 ![1, 0] (halves o) slices_S3x4_S1x4_1_0) shapeCasts_S1x4_S4
/-- Row 2 (the intersections' counts). -/
def row2 (o : Vec F S2x3x4 .f32) : Vec F S4 .f32 :=
  shapeCast S4 (extractStridedSlice S1x4 ![2, 0] (halves o) slices_S3x4_S1x4_2_0) shapeCasts_S1x4_S4

/-- What the lines after the region compute from the output array: the four classes' scores
    `(2·row2 + 1) / ((row0 + row1) + 1)`, their losses `1 − score`, and the losses' mean. -/
def tail (o : Vec F S2x3x4 .f32) : Vec F S_ .f32 :=
  Host.divf
    (Host.reduceAdd
      (subf (broadcastInDim S4 ![] bcast_S_S4 (constant S_ .f32 0x3F800000#32))
        (Host.divf
          (addf (mulf (broadcastInDim S4 ![] bcast_S_S4 (constant S_ .f32 0x40000000#32)) (row2 o))
            (broadcastInDim S4 ![] bcast_S_S4 (constant S_ .f32 0x3F800000#32)))
          (addf (addf (row0 o) (row1 o)) (broadcastInDim S4 ![] bcast_S_S4 (constant S_ .f32 0x3F800000#32)))))
      (constant S_ .f32 0x00000000#32) reducesTo_S4_S_d0 h_S_)
    (constant S_ .f32 0x40800000#32)

/-- The program's result after the run is `tail` of the output array the region leaves. -/
theorem tail_eq (c : Dev nD) :
    Pipeline.afterTail₀ cfgs (dats m) 0 (V0 m) [hostOps1] c main_v21 = tail ((dats m 0 c).arrAt 2 cfg0.N) := by
  unfold Pipeline.afterTail₀
  show StableHlo.after hostOps1 _ (Proc.devRef .tc main_v21) = _
  after_results
  rw [show Pipeline.withArrays (cfgs 0).spec c (V0 m c) (fun w => (dats m 0 c).arrAt w (cfgs 0).N) (Proc.tc.devRef main_v2)
      = (dats m 0 c).arrAt 2 cfg0.N from Pipeline.withArrays_arr spec0 launch0.win.arr_inj c _ _ 2]
  rfl

end Cert.KernelIdeal.Block

end
-- ==== Proof.TailValue.lean ====
/-
  The lines after the region, read over the extended reals.

  The region leaves a [2, 3, 4] array `o`: for each half `p` of the pixels, quantity `a` of class `k`. Adding the two halves
  from the float zero gives the twelve totals `zeroW + ∑ p, o (p, a, k)`; row `a` of that [3, 4] array, cut out and
  flattened, is the four classes' totals of quantity `a`; the score and loss of class `k` are formed elementwise from the
  three rows at `k` with the constants one and two broadcast from scalars; and the four losses are summed from the float
  zero and divided by four. That is the specification's `Dice.loss` of the twelve totals.
-/
import proofs.«119737_j59803124629506_1_alg».proof.Proof.Tail
import proofs.«119737_j59803124629506_1_alg».proof.Proof.Spec
import Idealize.ShloMosaic.Lib.ValueIdx
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen

/-! ## The operations, one element at a time -/

/-- A sum over the indices of a one-axis array is the sum over its positions. -/
theorem sum_positions {M : Type} [AddCommMonoid M] (n : Nat) (f : (⟨1, ![n]⟩ : Shape).Idx → M) :
    ∑ j : (⟨1, ![n]⟩ : Shape).Idx, f j = ∑ m : Fin n, f (ix1 m) := by
  refine Fintype.sum_equiv ⟨fun j => (j 0 : Fin n), fun m => ix1 m, fun j => (eq_ix1 j).symm, fun m => rfl⟩ _ _ ?_
  intro j
  exact congrArg f (eq_ix1 j)

/-- The sum of the [2, 3, 4] array over its first axis, from an initial value: at `(a, k)` the initial value plus the two
    halves' entries. -/
theorem reduceHalves_at (o : Vec Ideal S2x3x4 .f32) (c : Vec Ideal S_ .f32) (a : Fin 3) (k : Fin 4) :
    Host.reduceAdd (F := Ideal) (φ := .f32) o c reducesTo_S2x3x4_S3x4_d0 h_S_ (ix2 a k)
      = c (Shape.Idx.first h_S_) + ∑ p : Fin 2, o (ix3 p a k) := by
  simp only [Host.reduceAdd, Ideal.hostReduceAdd_def]
  refine (Ideal.hostReduceAdd_single reducesTo_S2x3x4_S3x4_d0 (by decide) o _ (ix2 a k)).trans ?_
  refine congrArg (c (Shape.Idx.first h_S_) + ·) (Finset.sum_congr rfl fun p _ => congrArg o ?_)
  funext b
  match b with
  | ⟨0, _⟩ => exact Fin.ext rfl
  | ⟨1, _⟩ => exact Fin.ext rfl
  | ⟨2, _⟩ => exact Fin.ext rfl

/-- The sum of a [4] array into a scalar, from an initial value. -/
theorem reduceFour_at (v : Vec Ideal S4 .f32) (c : Vec Ideal S_ .f32) (i : S_.Idx) :
    Host.reduceAdd (F := Ideal) (φ := .f32) v c reducesTo_S4_S_d0 h_S_ i = c (Shape.Idx.first h_S_) + ∑ m : Fin 4, v (ix1 m) := by
  simp only [Host.reduceAdd, Ideal.hostReduceAdd_def]
  refine (Ideal.hostReduceAdd_total reducesTo_S4_S_d0 (fun b => b.elim0) v _ i).trans ?_
  exact congrArg (c (Shape.Idx.first h_S_) + ·) (sum_positions 4 v)

/-- A scalar constant broadcast to four positions reads the constant's value at each. -/
theorem bcast_at (w : BitVec 32) (j : S4.Idx) :
    broadcastInDim S4 ![] bcast_S_S4 (constant (F := Ideal) S_ .f32 w) j = Ideal.ofBits .f32 w :=
  broadcastInDim_apply _ bcast_S_S4 _ j ix0 (fun a => a.elim0)

/-- Row `a` of a [3, 4] array, cut out as [1, 4] and flattened to [4], at position `k` is the array at `(a, k)`. -/
theorem row_at (x : Vec Ideal S3x4 .f32) (a : Fin 3) (hs : S3x4.Slices ![a.val, 0] S1x4) (k : Fin 4) :
    shapeCast S4 (extractStridedSlice S1x4 ![a.val, 0] x hs) shapeCasts_S1x4_S4 (ix1 k) = x (ix2 a k) := by
  refine (shapeCast_apply _ shapeCasts_S1x4_S4 (ix1 k) (ix2 (0 : Fin 1) k) ?_).trans ?_
  · rewrite [Shape.rowMajor_val_two, Shape.rowMajor_val_one]
    show 0 * 4 + k.val = k.val
    omega
  · refine extractStridedSlice_apply _ x hs (ix2 (0 : Fin 1) k) (ix2 a k) fun b => ?_
    match b with
    | ⟨0, _⟩ => rfl
    | ⟨1, _⟩ => exact (Nat.zero_add _).symm

/-- The elementwise quotient of two arrays reads the quotient of their elements. -/
theorem hostDivf_at {s : Shape} (x y : Vec Ideal s .f32) (j : s.Idx) :
    Host.divf (F := Ideal) (φ := .f32) x y j = Ideal.div (x j) (y j) := rfl

/-- The score and loss formed elementwise from three rows of totals: at each position the specification's class loss of the
    three rows' entries there. -/
theorem loss_at (r0 r1 r2 : Vec Ideal S4 .f32) (j : S4.Idx) :
    subf (F := Ideal) (φ := .f32) (broadcastInDim S4 ![] bcast_S_S4 (constant S_ .f32 0x3F800000#32))
        (Host.divf
          (addf (mulf (broadcastInDim S4 ![] bcast_S_S4 (constant S_ .f32 0x40000000#32)) r2)
            (broadcastInDim S4 ![] bcast_S_S4 (constant S_ .f32 0x3F800000#32)))
          (addf (addf r0 r1) (broadcastInDim S4 ![] bcast_S_S4 (constant S_ .f32 0x3F800000#32)))) j
      = Dice.classLoss (r0 j) (r1 j) (r2 j) := by
  rw [subf_apply, hostDivf_at, addf_apply, addf_apply, addf_apply, mulf_apply, bcast_at, bcast_at]
  rfl

/-! ## The twelve totals and the mean of the four losses -/

variable (o : Vec Ideal S2x3x4 .f32)

/-- The two halves added: total `a` of class `k`, from the float zero. -/
theorem halves_at (a : Fin 3) (k : Fin 4) :
    halves (F := Ideal) o (ix2 a k) = Dice.zeroW + ∑ p : Fin 2, o (ix3 p a k) := by
  unfold halves
  exact reduceHalves_at o _ a k

theorem row0_at (k : Fin 4) : row0 (F := Ideal) o (ix1 k) = Dice.zeroW + ∑ p : Fin 2, o (ix3 p 0 k) := by
  unfold row0
  exact (row_at (halves o) 0 slices_S3x4_S1x4_0_0 k).trans (halves_at o 0 k)

theorem row1_at (k : Fin 4) : row1 (F := Ideal) o (ix1 k) = Dice.zeroW + ∑ p : Fin 2, o (ix3 p 1 k) := by
  unfold row1
  exact (row_at (halves o) 1 slices_S3x4_S1x4_1_0 k).trans (halves_at o 1 k)

theorem row2_at (k : Fin 4) : row2 (F := Ideal) o (ix1 k) = Dice.zeroW + ∑ p : Fin 2, o (ix3 p 2 k) := by
  unfold row2
  exact (row_at (halves o) 2 slices_S3x4_S1x4_2_0 k).trans (halves_at o 2 k)

/-- **The lines after the region compute the specification's loss of the twelve totals**, each total the float zero plus
    the two halves' entries. -/
theorem tail_apply (o : Vec Ideal S2x3x4 .f32) (i : S_.Idx) :
    tail (F := Ideal) o i = Dice.loss (fun a k => Dice.zeroW + ∑ p : Fin 2, o (ix3 p a k)) := by
  unfold tail
  refine (hostDivf_at _ _ i).trans ?_
  rw [reduceFour_at]
  unfold Dice.loss
  refine congrArg (fun z => Ideal.div (Dice.zeroW + z) Dice.fourW) (Finset.sum_congr rfl fun m _ => ?_)
  refine (loss_at (row0 o) (row1 o) (row2 o) (ix1 m)).trans ?_
  rw [row0_at, row1_at, row2_at]

end Cert.KernelIdeal.Block

end
-- ==== Proof.KernelRun.lean ====
/-
  The idealized kernel's run, read as a value. A grid point's counts are sums over the pixels of its 1024 rows; the
  output array's two halves added are therefore the totals over every pixel (the pixels regrouped as 2 × 8 blocks of
  1024 rows of 1024 lanes); and the lines after the region turn the twelve totals into the loss.
-/
import proofs.«119737_j59803124629506_1_alg».proof.Proof.Accum
import proofs.«119737_j59803124629506_1_alg».proof.Proof.PointRead
import proofs.«119737_j59803124629506_1_alg».proof.Proof.Tail
import proofs.«119737_j59803124629506_1_alg».proof.Proof.TailValue

noncomputable section

namespace Cert.KernelIdeal.Block

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The counts as sums over pixels -/

/-- Quantity `a` of class `k` at flat pixel `n` of the argument arrays (and `0` past the last pixel). -/
def pix (X : S16x1x1024x1024.Idx → EReal) (T : S16x1x1024x1024.Idx → BitVec 32) (a : Fin 3) (k : Fin 4) (n : ℕ) : EReal :=
  if h : n < 16777216 then Dice.elem a k (X (Dice.at4 ⟨n, h⟩)) (T (Dice.at4 ⟨n, h⟩)) else 0

theorem tot_eq (X : S16x1x1024x1024.Idx → EReal) (T : S16x1x1024x1024.Idx → BitVec 32) (a : Fin 3) (k : Fin 4) :
    Dice.tot a k X T = ∑ n : Fin 16777216, pix X T a k n.val := by
  unfold Dice.tot
  refine Finset.sum_congr rfl fun n _ => ?_
  unfold pix
  rw [dif_pos n.isLt]

/-- The counts of grid point `n` are the sums over the pixels of its rows `1024·n … 1024·n + 1023`. -/
theorem pointCount_eq (c : Dev nD) (n : ℕ) (hn : n < 16) (a : Fin 3) (k : Fin 4) :
    pointCount m c n a k = ∑ r : Fin 1024, ∑ q : Fin 1024,
      pix (m ((c : Thread nD τ).loc main_arg0)) (m ((c : Thread nD τ).loc main_arg1)) a k ((n * 1024 + r.val) * 1024 + q.val) := by
  have hN : n < cfg0.N := lt_of_lt_of_eq hn (show cfg0.N = 16 from N_0).symm
  have e0 : ∀ (r q : Fin 1024) (hR : n * 1024 + r.val < 16384) (hp : (n * 1024 + r.val) * 1024 + q.val < 16777216),
      (iblk m c 0 ⟨n, hN⟩ : Vec Ideal S1024x1024 .f32) (ix2 r q)
        = m ((c : Thread nD τ).loc main_arg0) (Dice.at4 ⟨(n * 1024 + r.val) * 1024 + q.val, hp⟩) := fun r q hR hp =>
    (iblk0_apply m c ⟨n, hN⟩ r q ⟨n * 1024 + r.val, hR⟩ rfl).trans
      ((congrFun (V_v0 m c) (ix2 ⟨n * 1024 + r.val, hR⟩ q)).trans
        (relaid_apply (m ((c : Thread nD τ).loc main_arg0)) shapeCasts_S16x1x1024x1024_S16384x1024 ⟨n * 1024 + r.val, hR⟩ q
          ⟨(n * 1024 + r.val) * 1024 + q.val, hp⟩ rfl))
  have e1 : ∀ (r q : Fin 1024) (hR : n * 1024 + r.val < 16384) (hp : (n * 1024 + r.val) * 1024 + q.val < 16777216),
      (iblk m c 1 ⟨n, hN⟩ : Vec Ideal S1024x1024 .i32) (ix2 r q)
        = m ((c : Thread nD τ).loc main_arg1) (Dice.at4 ⟨(n * 1024 + r.val) * 1024 + q.val, hp⟩) := fun r q hR hp =>
    (iblk1_apply m c ⟨n, hN⟩ r q ⟨n * 1024 + r.val, hR⟩ rfl).trans
      ((congrFun (V_v1 m c) (ix2 ⟨n * 1024 + r.val, hR⟩ q)).trans
        (relaid_apply (m ((c : Thread nD τ).loc main_arg1)) shapeCasts_S16x1x1024x1024_S16384x1024 ⟨n * 1024 + r.val, hR⟩ q
          ⟨(n * 1024 + r.val) * 1024 + q.val, hp⟩ rfl))
  unfold pointCount
  rw [dif_pos hN]
  unfold blockCount
  refine Finset.sum_congr rfl fun r _ => Finset.sum_congr rfl fun q _ => ?_
  have hr := r.isLt
  have hq := q.isLt
  have hR : n * 1024 + r.val < 16384 := by omega
  have hp : (n * 1024 + r.val) * 1024 + q.val < 16777216 := by omega
  unfold pix
  rw [dif_pos hp, e0 r q hR hp, e1 r q hR hp]

/-- Adding the two halves' entries of the output array gives the total over every pixel. -/
theorem out_total (c : Dev nD) (a : Fin 3) (k : Fin 4) :
    ∑ p : Fin 2, outArr m c (ix3 p a k)
      = Dice.tot a k (m ((c : Thread nD τ).loc main_arg0)) (m ((c : Thread nD τ).loc main_arg1)) := by
  rw [tot_eq, Dice.sum_blocks]
  refine Finset.sum_congr rfl fun p _ => ?_
  show outEntry m c p a k = _
  unfold outEntry
  rw [Finset.sum_range]
  refine Finset.sum_congr rfl fun i _ => ?_
  have hp := p.isLt
  have hi := i.isLt
  exact pointCount_eq m c (p.val * 8 + i.val) (by omega) a k

/-! ## The run, read -/

/-- Every weakly fair execution of the idealized kernel's program ends with its result at the specification's loss of
    the twelve totals of the argument arrays, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v21)
          = (fun _ => Dice.loss fun a k => Dice.zeroW
              + Dice.tot a k (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v21 (Pipeline.mem_restRefs_of main_v21 (by decide) (by decide))).trans (by
        rw [tail_eq, final]
        funext i
        rw [tail_apply]
        exact congrArg Dice.loss (funext fun a => funext fun k => congrArg (Dice.zeroW + ·) (out_total m c a k))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Block

end
-- ==== Proof.RefValue.lean ====
/-
  The reference computes the specification.

  The reference flattens both arrays, and for each of the four classes forms three arrays of zeros and ones (the
  prediction is the class at a counted pixel; the label is the class at a counted pixel; their product), sums each over
  all 16·1024·1024 pixels starting from the float zero, forms the class's loss from the three totals, and averages the
  four losses. Read one operation at a time, every element of the three arrays is the specification's `Dice.elem` at the
  pixel the flat position names, every total is `Dice.zeroW + Dice.tot`, every class's scalar tail is
  `Dice.classLoss`, and the mean is `Dice.loss`.
-/
import proofs.«119737_j59803124629506_1_alg».proof.Proof.Gen.ReferenceIdeal.Read
import proofs.«119737_j59803124629506_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read

/-! ## Flat positions -/

/-- A sum over the indices of a one-axis array is the sum over its positions. -/
theorem sum_flat {M : Type} [AddCommMonoid M] (n : Nat) (f : (⟨1, ![n]⟩ : Shape).Idx → M) :
    ∑ j : (⟨1, ![n]⟩ : Shape).Idx, f j = ∑ m : Fin n, f (ix1 m) := by
  refine Fintype.sum_equiv ⟨fun j => (j 0 : Fin n), fun m => ix1 m, fun j => (eq_ix1 j).symm, fun m => rfl⟩ _ _ ?_
  intro j
  exact congrArg f (eq_ix1 j)

/-- Flat position `j` of the reshaped prediction array is pixel `Dice.at4 (j 0)`. -/
theorem idx0_eq (j : S16777216.Idx) : idx_main_v0 j = Dice.at4 (j 0) := by
  funext a
  match a with
  | ⟨0, _⟩ => rfl
  | ⟨1, _⟩ => rfl
  | ⟨2, _⟩ => rfl
  | ⟨3, _⟩ => rfl

/-- The same for the reshaped label array. -/
theorem idx1_eq (j : S16777216.Idx) : idx_main_v1 j = Dice.at4 (j 0) := by
  funext a
  match a with
  | ⟨0, _⟩ => rfl
  | ⟨1, _⟩ => rfl
  | ⟨2, _⟩ => rfl
  | ⟨3, _⟩ => rfl

variable (X : (⟨S16x1x1024x1024, .f32⟩ : BufTy).Contents (Elt Ideal))
  (T : (⟨S16x1x1024x1024, .i32⟩ : BufTy).Contents (Elt Ideal))

theorem v0_at (j : S16777216.Idx) : val_main_v0 (F := Ideal) X j = X (Dice.at4 (j 0)) := by
  rw [val_main_v0_apply, idx0_eq]

theorem v1_at (j : S16777216.Idx) : val_main_v1 (F := Ideal) T j = T (Dice.at4 (j 0)) := by
  rw [val_main_v1_apply, idx1_eq]

/-- The "label is not the ignore label" bit at a flat position. -/
theorem v3_at (j : S16777216.Idx) : val_main_v3 (F := Ideal) T j = Dice.valid (T (Dice.at4 (j 0))) := by
  rw [val_main_v3_apply, v1_at, val_main_v2_apply]
  rfl

/-! ## The three arrays of a class, one element at a time -/

/-! ### Class 0 -/

theorem v7_at (j : S16777216.Idx) :
    val_main_v7 (F := Ideal) X T j = Dice.elem 0 0 (X (Dice.at4 (j 0))) (T (Dice.at4 (j 0))) := by
  rw [val_main_v7_apply, val_main_v6_apply, val_main_v5_apply, v0_at, v3_at, val_main_v4_apply]
  rfl

theorem v11_at (j : S16777216.Idx) :
    val_main_v11 (F := Ideal) T j = Dice.elem 1 0 (X (Dice.at4 (j 0))) (T (Dice.at4 (j 0))) := by
  rw [val_main_v11_apply, val_main_v10_apply, val_main_v9_apply, v1_at, v3_at, val_main_v8_apply]
  rfl

theorem v12_at (j : S16777216.Idx) :
    val_main_v12 (F := Ideal) X T j = Dice.elem 2 0 (X (Dice.at4 (j 0))) (T (Dice.at4 (j 0))) := by
  rw [val_main_v12_apply, v7_at, v11_at X]
  rfl

/-! ### Class 1 -/

theorem v25_at (j : S16777216.Idx) :
    val_main_v25 (F := Ideal) X T j = Dice.elem 0 1 (X (Dice.at4 (j 0))) (T (Dice.at4 (j 0))) := by
  rw [val_main_v25_apply, val_main_v24_apply, val_main_v23_apply, v0_at, v3_at, val_main_v22_apply]
  rfl

theorem v29_at (j : S16777216.Idx) :
    val_main_v29 (F := Ideal) T j = Dice.elem 1 1 (X (Dice.at4 (j 0))) (T (Dice.at4 (j 0))) := by
  rw [val_main_v29_apply, val_main_v28_apply, val_main_v27_apply, v1_at, v3_at, val_main_v26_apply]
  rfl

theorem v30_at (j : S16777216.Idx) :
    val_main_v30 (F := Ideal) X T j = Dice.elem 2 1 (X (Dice.at4 (j 0))) (T (Dice.at4 (j 0))) := by
  rw [val_main_v30_apply, v25_at, v29_at X]
  rfl

/-! ### Class 2 -/

theorem v43_at (j : S16777216.Idx) :
    val_main_v43 (F := Ideal) X T j = Dice.elem 0 2 (X (Dice.at4 (j 0))) (T (Dice.at4 (j 0))) := by
  rw [val_main_v43_apply, val_main_v42_apply, val_main_v41_apply, v0_at, v3_at, val_main_v40_apply]
  rfl

theorem v47_at (j : S16777216.Idx) :
    val_main_v47 (F := Ideal) T j = Dice.elem 1 2 (X (Dice.at4 (j 0))) (T (Dice.at4 (j 0))) := by
  rw [val_main_v47_apply, val_main_v46_apply, val_main_v45_apply, v1_at, v3_at, val_main_v44_apply]
  rfl

theorem v48_at (j : S16777216.Idx) :
    val_main_v48 (F := Ideal) X T j = Dice.elem 2 2 (X (Dice.at4 (j 0))) (T (Dice.at4 (j 0))) := by
  rw [val_main_v48_apply, v43_at, v47_at X]
  rfl

/-! ### Class 3 -/

theorem v61_at (j : S16777216.Idx) :
    val_main_v61 (F := Ideal) X T j = Dice.elem 0 3 (X (Dice.at4 (j 0))) (T (Dice.at4 (j 0))) := by
  rw [val_main_v61_apply, val_main_v60_apply, val_main_v59_apply, v0_at, v3_at, val_main_v58_apply]
  rfl

theorem v65_at (j : S16777216.Idx) :
    val_main_v65 (F := Ideal) T j = Dice.elem 1 3 (X (Dice.at4 (j 0))) (T (Dice.at4 (j 0))) := by
  rw [val_main_v65_apply, val_main_v64_apply, val_main_v63_apply, v1_at, v3_at, val_main_v62_apply]
  rfl

theorem v66_at (j : S16777216.Idx) :
    val_main_v66 (F := Ideal) X T j = Dice.elem 2 3 (X (Dice.at4 (j 0))) (T (Dice.at4 (j 0))) := by
  rw [val_main_v66_apply, v61_at, v65_at X]
  rfl

/-! ## The totals and the scalar tail of a class -/

/-- An array whose element at every flat position is the specification's quantity `a` of class `k` at that pixel sums to
    the specification's total. -/
theorem total_eq (a : Fin 3) (k : Fin 4) (f : S16777216.Idx → EReal)
    (hf : ∀ j, f j = Dice.elem a k (X (Dice.at4 (j 0))) (T (Dice.at4 (j 0)))) :
    ∑ j : S16777216.Idx, f j = Dice.tot a k X T := by
  refine (sum_flat 16777216 f).trans ?_
  exact Finset.sum_congr rfl fun m _ => hf (ix1 m)

/-! ### Class 0 -/

theorem v13_eq (i : S_.Idx) : val_main_v13 (F := Ideal) X T i = Dice.zeroW + Dice.tot 2 0 X T := by
  rw [val_main_v13_apply]
  exact congrArg (Dice.zeroW + ·) (total_eq X T 2 0 _ (v12_at X T))

theorem v16_eq (i : S_.Idx) : val_main_v16 (F := Ideal) X T i = Dice.zeroW + Dice.tot 0 0 X T := by
  rw [val_main_v16_apply]
  exact congrArg (Dice.zeroW + ·) (total_eq X T 0 0 _ (v7_at X T))

theorem v17_eq (i : S_.Idx) : val_main_v17 (F := Ideal) T i = Dice.zeroW + Dice.tot 1 0 X T := by
  rw [val_main_v17_apply]
  exact congrArg (Dice.zeroW + ·) (total_eq X T 1 0 _ (v11_at X T))

/-- The class's loss from its three totals. -/
theorem v21_eq (i : S_.Idx) :
    val_main_v21 (F := Ideal) X T i
      = Dice.classLoss (Dice.zeroW + Dice.tot 0 0 X T) (Dice.zeroW + Dice.tot 1 0 X T) (Dice.zeroW + Dice.tot 2 0 X T) := by
  rw [val_main_v21_apply, val_main_v20_apply, val_main_v15_apply, val_main_v14_apply, val_main_v19_apply,
    val_main_v18_apply, v13_eq, v16_eq, v17_eq X]
  rfl

/-! ### Class 1 -/

theorem v31_eq (i : S_.Idx) : val_main_v31 (F := Ideal) X T i = Dice.zeroW + Dice.tot 2 1 X T := by
  rw [val_main_v31_apply]
  exact congrArg (Dice.zeroW + ·) (total_eq X T 2 1 _ (v30_at X T))

theorem v34_eq (i : S_.Idx) : val_main_v34 (F := Ideal) X T i = Dice.zeroW + Dice.tot 0 1 X T := by
  rw [val_main_v34_apply]
  exact congrArg (Dice.zeroW + ·) (total_eq X T 0 1 _ (v25_at X T))

theorem v35_eq (i : S_.Idx) : val_main_v35 (F := Ideal) T i = Dice.zeroW + Dice.tot 1 1 X T := by
  rw [val_main_v35_apply]
  exact congrArg (Dice.zeroW + ·) (total_eq X T 1 1 _ (v29_at X T))

/-- The class's loss from its three totals. -/
theorem v39_eq (i : S_.Idx) :
    val_main_v39 (F := Ideal) X T i
      = Dice.classLoss (Dice.zeroW + Dice.tot 0 1 X T) (Dice.zeroW + Dice.tot 1 1 X T) (Dice.zeroW + Dice.tot 2 1 X T) := by
  rw [val_main_v39_apply, val_main_v38_apply, val_main_v33_apply, val_main_v32_apply, val_main_v37_apply,
    val_main_v36_apply, v31_eq, v34_eq, v35_eq X]
  rfl

/-! ### Class 2 -/

theorem v49_eq (i : S_.Idx) : val_main_v49 (F := Ideal) X T i = Dice.zeroW + Dice.tot 2 2 X T := by
  rw [val_main_v49_apply]
  exact congrArg (Dice.zeroW + ·) (total_eq X T 2 2 _ (v48_at X T))

theorem v52_eq (i : S_.Idx) : val_main_v52 (F := Ideal) X T i = Dice.zeroW + Dice.tot 0 2 X T := by
  rw [val_main_v52_apply]
  exact congrArg (Dice.zeroW + ·) (total_eq X T 0 2 _ (v43_at X T))

theorem v53_eq (i : S_.Idx) : val_main_v53 (F := Ideal) T i = Dice.zeroW + Dice.tot 1 2 X T := by
  rw [val_main_v53_apply]
  exact congrArg (Dice.zeroW + ·) (total_eq X T 1 2 _ (v47_at X T))

/-- The class's loss from its three totals. -/
theorem v57_eq (i : S_.Idx) :
    val_main_v57 (F := Ideal) X T i
      = Dice.classLoss (Dice.zeroW + Dice.tot 0 2 X T) (Dice.zeroW + Dice.tot 1 2 X T) (Dice.zeroW + Dice.tot 2 2 X T) := by
  rw [val_main_v57_apply, val_main_v56_apply, val_main_v51_apply, val_main_v50_apply, val_main_v55_apply,
    val_main_v54_apply, v49_eq, v52_eq, v53_eq X]
  rfl

/-! ### Class 3 -/

theorem v67_eq (i : S_.Idx) : val_main_v67 (F := Ideal) X T i = Dice.zeroW + Dice.tot 2 3 X T := by
  rw [val_main_v67_apply]
  exact congrArg (Dice.zeroW + ·) (total_eq X T 2 3 _ (v66_at X T))

theorem v70_eq (i : S_.Idx) : val_main_v70 (F := Ideal) X T i = Dice.zeroW + Dice.tot 0 3 X T := by
  rw [val_main_v70_apply]
  exact congrArg (Dice.zeroW + ·) (total_eq X T 0 3 _ (v61_at X T))

theorem v71_eq (i : S_.Idx) : val_main_v71 (F := Ideal) T i = Dice.zeroW + Dice.tot 1 3 X T := by
  rw [val_main_v71_apply]
  exact congrArg (Dice.zeroW + ·) (total_eq X T 1 3 _ (v65_at X T))

/-- The class's loss from its three totals. -/
theorem v75_eq (i : S_.Idx) :
    val_main_v75 (F := Ideal) X T i
      = Dice.classLoss (Dice.zeroW + Dice.tot 0 3 X T) (Dice.zeroW + Dice.tot 1 3 X T) (Dice.zeroW + Dice.tot 2 3 X T) := by
  rw [val_main_v75_apply, val_main_v74_apply, val_main_v69_apply, val_main_v68_apply, val_main_v73_apply,
    val_main_v72_apply, v67_eq, v70_eq, v71_eq X]
  rfl

/-! ## The four losses side by side, and their mean -/

/-- A sum over the four positions of a four-element array. -/
theorem sum_four (f : S4.Idx → EReal) :
    ∑ j : S4.Idx, f j = f (ix1 (0 : Fin 4)) + f (ix1 (1 : Fin 4)) + f (ix1 (2 : Fin 4)) + f (ix1 (3 : Fin 4)) :=
  (sum_flat 4 f).trans (Fin.sum_univ_four _)

/-! Position `k` of the four one-element arrays laid end to end is the one element of the `k`-th: the pieces before it have
    total extent `k`, and the position inside it is `0`. -/

theorem v80_at0 : val_main_v80 (F := Ideal) X T (ix1 (0 : Fin 4)) = val_main_v76 (F := Ideal) X T (ix1 (0 : Fin 1)) := by
  unfold val_main_v80
  exact concatenate_apply_piece _ _ _ (ix1 (0 : Fin 4)) 0 (by show (0 : Nat) < 4; omega) S1 _ rfl rfl 0 rfl
    (ix1 (0 : Fin 1)) (fun b hb => absurd (Subsingleton.elim _ _) hb) rfl

theorem v80_at1 : val_main_v80 (F := Ideal) X T (ix1 (1 : Fin 4)) = val_main_v77 (F := Ideal) X T (ix1 (0 : Fin 1)) := by
  unfold val_main_v80
  exact concatenate_apply_piece _ _ _ (ix1 (1 : Fin 4)) 1 (by show (1 : Nat) < 4; omega) S1 _ rfl rfl 1 rfl
    (ix1 (0 : Fin 1)) (fun b hb => absurd (Subsingleton.elim _ _) hb) rfl

theorem v80_at2 : val_main_v80 (F := Ideal) X T (ix1 (2 : Fin 4)) = val_main_v78 (F := Ideal) X T (ix1 (0 : Fin 1)) := by
  unfold val_main_v80
  exact concatenate_apply_piece _ _ _ (ix1 (2 : Fin 4)) 2 (by show (2 : Nat) < 4; omega) S1 _ rfl rfl 2 rfl
    (ix1 (0 : Fin 1)) (fun b hb => absurd (Subsingleton.elim _ _) hb) rfl

theorem v80_at3 : val_main_v80 (F := Ideal) X T (ix1 (3 : Fin 4)) = val_main_v79 (F := Ideal) X T (ix1 (0 : Fin 1)) := by
  unfold val_main_v80
  exact concatenate_apply_piece _ _ _ (ix1 (3 : Fin 4)) 3 (by show (3 : Nat) < 4; omega) S1 _ rfl rfl 3 rfl
    (ix1 (0 : Fin 1)) (fun b hb => absurd (Subsingleton.elim _ _) hb) rfl

/-- The sum of the four classes' losses, from the float zero. -/
theorem v81_eq (i : S_.Idx) :
    val_main_v81 (F := Ideal) X T i
      = Dice.zeroW + ∑ k : Fin 4, Dice.classLoss (Dice.zeroW + Dice.tot 0 k X T) (Dice.zeroW + Dice.tot 1 k X T)
          (Dice.zeroW + Dice.tot 2 k X T) := by
  rw [val_main_v81_apply, sum_four, v80_at0, v80_at1, v80_at2, v80_at3, val_main_v76_apply, val_main_v77_apply,
    val_main_v78_apply, val_main_v79_apply, v21_eq, v39_eq, v57_eq, v75_eq, Fin.sum_univ_four]
  rfl

/-- **The reference computes the specification**: its result is the mean of the four classes' Dice losses, each from the
    class's three totals over all pixels. -/
theorem ref_eq (X : (⟨S16x1x1024x1024, .f32⟩ : BufTy).Contents (Elt Ideal))
    (T : (⟨S16x1x1024x1024, .i32⟩ : BufTy).Contents (Elt Ideal)) :
    Cert.ReferenceIdeal.Read.val_main_v82 (F := Ideal) X T
      = fun _ => Dice.loss (fun a k => Dice.zeroW + Dice.tot a k X T) := by
  funext i
  rw [val_main_v82_apply, v81_eq]
  rfl

end Cert.ReferenceIdeal.RefValue

end
-- ==== Proof.lean ====
/-
  The certificate of the 4-class Dice loss kernel against its jnp reference.

  Both programs compute, for each class, three totals over all 16·1024·1024 pixels — how often the prediction is the class
  at a counted pixel, how often the label is, and how often both are — and from them the class's loss
  `1 − (2·S₂ + 1) / ((S₀ + S₁) + 1)`, then the mean of the four losses. The reference sums each quantity in one flat sum; the
  kernel sums it block by block — the lanes of a row, the rows of a [1024, 1024] block, eight blocks accumulated in the
  output's buffer, the two halves added after the region. Over the extended reals addition is commutative and associative,
  so the two groupings of the same 0/1 terms are equal; from the totals on, the two programs apply the same operations in
  the same order. No finiteness of the inputs is used. The ideal pass rewrote nothing, so the idealized kernel is the
  kernel's own text.
-/
import proofs.«119737_j59803124629506_1_alg».proof.Defs
import proofs.«119737_j59803124629506_1_alg».proof.Proof.Gen.Kernel
import proofs.«119737_j59803124629506_1_alg».proof.Proof.Gen.Kernel.Frame
import proofs.«119737_j59803124629506_1_alg».proof.Proof.Gen.KernelIdeal
import proofs.«119737_j59803124629506_1_alg».proof.Proof.Gen.KernelIdeal.Frame
import proofs.«119737_j59803124629506_1_alg».proof.Proof.Gen.ReferenceIdeal
import proofs.«119737_j59803124629506_1_alg».proof.Proof.Gen.ReferenceIdeal.Run
import proofs.«119737_j59803124629506_1_alg».proof.Proof.Gen.ReferenceIdeal.Read
import proofs.«119737_j59803124629506_1_alg».proof.Proof.Gen.Pre_finite_inputs
import proofs.«119737_j59803124629506_1_alg».proof.Proof.KernelRun
import proofs.«119737_j59803124629506_1_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification's loss of the twelve totals of arguments that agree. -/
theorem algebraic : Cert.algebraic_KernelIdeal_ReferenceIdeal := by
  intro m ρ m' ρ' _ hagree
  refine ⟨_, Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v82_eq, Cert.ReferenceIdeal.RefValue.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
